-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x400000 : Shape := ⟨2, ![2, 400000]⟩
abbrev S1x512 : Shape := ⟨2, ![1, 512]⟩
abbrev S512 : Shape := ⟨1, ![512]⟩
abbrev S512x512 : Shape := ⟨2, ![512, 512]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part3 {F : FTy → Type} [FloatOps F] (main_arg12 : FVec F S512 .f32) (main_arg13 : FVec F S512x512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg12
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x512 .f32 := Host.absf main_arg13
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  main_v63

def fn_part2 {F : FTy → Type} [FloatOps F] (main_arg8 : FVec F S512x512 .f32) (main_arg9 : FVec F S512 .f32) (main_arg10 : FVec F S512x512 .f32) (main_arg11 : FVec F S512x512 .f32) (main_arg12 : FVec F S512 .f32) (main_arg13 : FVec F S512x512 .f32) (main_v33 : IVec S_ 1) : IVec S_ 1 :=
  let main_v34 : FVec F S512x512 .f32 := Host.absf main_arg8
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg10
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512x512 .f32 := Host.absf main_arg11
  let main_cst_18 : FVec F S_ .f32 := constant S_ .f32 0x7F800000#32
  let main_v50 : FVec F S512x512 .f32 := broadcastInDim S512x512 ![] bcast_S_S512x512 main_cst_18
  fn_part3 (F := F) main_arg12 main_arg13 main_v48 main_v49 main_v50

def fn_part1 {F : FTy → Type} [FloatOps F] (main_arg5 : FVec F S512x512 .f32) (main_arg6 : FVec F S512 .f32) (main_arg7 : FVec F S512x512 .f32) (main_arg8 : FVec F S512x512 .f32) (main_arg9 : FVec F S512 .f32) (main_arg10 : FVec F S512x512 .f32) (main_arg11 : FVec F S512x512 .f32) (main_arg12 : FVec F S512 .f32) (main_arg13 : FVec F S512x512 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x1 .f32) (main_arg1 : IVec S2x400000 32) (main_arg2 : FVec F S1x512 .f32) (main_arg3 : FVec F S512 .f32) (main_arg4 : FVec F S1x512 .f32) (main_arg5 : FVec F S512x512 .f32) (main_arg6 : FVec F S512 .f32) (main_arg7 : FVec F S512x512 .f32) (main_arg8 : FVec F S512x512 .f32) (main_arg9 : FVec F S512 .f32) (main_arg10 : FVec F S512x512 .f32) (main_arg11 : FVec F S512x512 .f32) (main_arg12 : FVec F S512 .f32) (main_arg13 : FVec F S512x512 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x512 .f32 := Host.absf main_arg2
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1x512 .f32 := Host.absf main_arg4
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg5 main_arg6 main_arg7 main_arg8 main_arg9 main_arg10 main_arg11 main_arg12 main_arg13 main_v13 main_v16
-- ==== Kernel.lean ====
abbrev S100000x1 : Shape := ⟨2, ![100000, 1]⟩
abbrev S2x400000 : Shape := ⟨2, ![2, 400000]⟩
abbrev S1x512 : Shape := ⟨2, ![1, 512]⟩
abbrev S512 : Shape := ⟨1, ![512]⟩
abbrev S512x512 : Shape := ⟨2, ![512, 512]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S100000x512 : Shape := ⟨2, ![100000, 512]⟩
abbrev S2000x1 : Shape := ⟨2, ![2000, 1]⟩
abbrev S2000x512 : Shape := ⟨2, ![2000, 512]⟩
abbrev S400000x512 : Shape := ⟨2, ![400000, 512]⟩

abbrev nBuf : Space → Nat
  | .hbm => 78
  | .vmem => 36
  | .smem => 0
  | _ => 0

abbrev bufTy : (tb : Table) → Fin (tcTables nBuf tb) → BufTy
  | .hbm, ⟨0, _⟩ => ⟨S100000x1, .f32⟩
  | .hbm, ⟨1, _⟩ => ⟨S2x400000, .i32⟩
  | .hbm, ⟨2, _⟩ => ⟨S1x512, .f32⟩
  | .hbm, ⟨3, _⟩ => ⟨S512, .f32⟩
  | .hbm, ⟨4, _⟩ => ⟨S1x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S1x400000, .i32⟩
  | .hbm, ⟨15, _⟩ => ⟨S400000, .i32⟩
  | .hbm, ⟨16, _⟩ => ⟨S1x400000, .i32⟩
  | .hbm, ⟨17, _⟩ => ⟨S400000, .i32⟩
  | .hbm, ⟨18, _⟩ => ⟨S_, .i32⟩
  | .hbm, ⟨19, _⟩ => ⟨S400000, .i32⟩
  | .hbm, ⟨20, _⟩ => ⟨S400000, .i1⟩
  | .hbm, ⟨21, _⟩ => ⟨S_, .i32⟩
  | .hbm, ⟨22, _⟩ => ⟨S400000, .i32⟩
  | .hbm, ⟨23, _⟩ => ⟨S400000, .i32⟩
  | .hbm, ⟨24, _⟩ => ⟨S400000, .i32⟩
  | .hbm, ⟨25, _⟩ => ⟨S400000x1, .i32⟩
  | .hbm, ⟨26, _⟩ => ⟨S400000x1, .f32⟩
  | .hbm, ⟨27, _⟩ => ⟨S_, .f32⟩
  | .hbm, ⟨28, _⟩ => ⟨S100000x1, .f32⟩
  | .hbm, ⟨29, _⟩ => ⟨S400000x1, .i32⟩
  | .hbm, ⟨30, _⟩ => ⟨S100000x1, .f32⟩
  | .hbm, ⟨31, _⟩ => ⟨S1x512, .f32⟩
  | .hbm, ⟨32, _⟩ => ⟨S100000x512, .f32⟩
  | .hbm, ⟨33, _⟩ => ⟨S_, .i32⟩
  | .hbm, ⟨34, _⟩ => ⟨S400000, .i32⟩
  | .hbm, ⟨35, _⟩ => ⟨S400000, .i1⟩
  | .hbm, ⟨36, _⟩ => ⟨S_, .i32⟩
  | .hbm, ⟨37, _⟩ => ⟨S400000, .i32⟩
  | .hbm, ⟨38, _⟩ => ⟨S400000, .i32⟩
  | .hbm, ⟨39, _⟩ => ⟨S400000, .i32⟩
  | .hbm, ⟨40, _⟩ => ⟨S400000x1, .i32⟩
  | .hbm, ⟨41, _⟩ => ⟨S400000x512, .f32⟩
  | .hbm, ⟨42, _⟩ => ⟨S_, .f32⟩
  | .hbm, ⟨43, _⟩ => ⟨S100000x512, .f32⟩
  | .hbm, ⟨44, _⟩ => ⟨S400000x1, .i32⟩
  | .hbm, ⟨45, _⟩ => ⟨S100000x512, .f32⟩
  | .hbm, ⟨46, _⟩ => ⟨S1x512, .f32⟩
  | .hbm, ⟨47, _⟩ => ⟨S100000x512, .f32⟩
  | .hbm, ⟨48, _⟩ => ⟨S_, .i32⟩
  | .hbm, ⟨49, _⟩ => ⟨S400000, .i32⟩
  | .hbm, ⟨50, _⟩ => ⟨S400000, .i1⟩
  | .hbm, ⟨51, _⟩ => ⟨S_, .i32⟩
  | .hbm, ⟨52, _⟩ => ⟨S400000, .i32⟩
  | .hbm, ⟨53, _⟩ => ⟨S400000, .i32⟩
  | .hbm, ⟨54, _⟩ => ⟨S400000, .i32⟩
  | .hbm, ⟨55, _⟩ => ⟨S400000x1, .i32⟩
  | .hbm, ⟨56, _⟩ => ⟨S400000x512, .f32⟩
  | .hbm, ⟨57, _⟩ => ⟨S_, .f32⟩
  | .hbm, ⟨58, _⟩ => ⟨S100000x512, .f32⟩
  | .hbm, ⟨59, _⟩ => ⟨S400000x1, .i32⟩
  | .hbm, ⟨60, _⟩ => ⟨S100000x512, .f32⟩
  | .hbm, ⟨61, _⟩ => ⟨S1x512, .f32⟩
  | .hbm, ⟨62, _⟩ => ⟨S100000x512, .f32⟩
  | .hbm, ⟨63, _⟩ => ⟨S_, .i32⟩
  | .hbm, ⟨64, _⟩ => ⟨S400000, .i32⟩
  | .hbm, ⟨65, _⟩ => ⟨S400000, .i1⟩
  | .hbm, ⟨66, _⟩ => ⟨S_, .i32⟩
  | .hbm, ⟨67, _⟩ => ⟨S400000, .i32⟩
  | .hbm, ⟨68, _⟩ => ⟨S400000, .i32⟩
  | .hbm, ⟨69, _⟩ => ⟨S400000, .i32⟩
  | .hbm, ⟨70, _⟩ => ⟨S400000x1, .i32⟩
  | .hbm, ⟨71, _⟩ => ⟨S400000x512, .f32⟩
  | .hbm, ⟨72, _⟩ => ⟨S_, .f32⟩
  | .hbm, ⟨73, _⟩ => ⟨S100000x512, .f32⟩
  | .hbm, ⟨74, _⟩ => ⟨S400000x1, .i32⟩
  | .hbm, ⟨75, _⟩ => ⟨S100000x512, .f32⟩
  | .hbm, ⟨76, _⟩ => ⟨S1x512, .f32⟩
  | .hbm, ⟨77, _⟩ => ⟨S100000x512, .f32⟩
  | .local _ .vmem, ⟨0, _⟩ => ⟨S2000x1, .f32⟩
  | .local _ .vmem, ⟨1, _⟩ => ⟨S2000x1, .f32⟩
  | .local _ .vmem, ⟨2, _⟩ => ⟨S2000x1, .f32⟩
  | .local _ .vmem, ⟨3, _⟩ => ⟨S2000x1, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S2000x512, .f32⟩
  | .local _ .vmem, ⟨8, _⟩ => ⟨S2000x512, .f32⟩
  | .local _ .vmem, ⟨9, _⟩ => ⟨S2000x512, .f32⟩
  | .local _ .vmem, ⟨10, _⟩ => ⟨S2000x512, .f32⟩
  | .local _ .vmem, ⟨11, _⟩ => ⟨S2000x512, .f32⟩
  | .local _ .vmem, ⟨12, _⟩ => ⟨S2000x512, .f32⟩
  | .local _ .vmem, ⟨13, _⟩ => ⟨S512x512, .f32⟩
  | .local _ .vmem, ⟨14, _⟩ => ⟨S512x512, .f32⟩
  | .local _ .vmem, ⟨15, _⟩ => ⟨S1x512, .f32⟩
  | .local _ .vmem, ⟨16, _⟩ => ⟨S2000x512, .f32⟩
  | .local _ .vmem, ⟨17, _⟩ => ⟨S2000x512, .f32⟩
  | .local _ .vmem, ⟨18, _⟩ => ⟨S2000x512, .f32⟩
  | .local _ .vmem, ⟨19, _⟩ => ⟨S2000x512, .f32⟩
  | .local _ .vmem, ⟨20, _⟩ => ⟨S2000x512, .f32⟩
  | .local _ .vmem, ⟨21, _⟩ => ⟨S2000x512, .f32⟩
  | .local _ .vmem, ⟨22, _⟩ => ⟨S512x512, .f32⟩
  | .local _ .vmem, ⟨23, _⟩ => ⟨S512x512, .f32⟩
  | .local _ .vmem, ⟨24, _⟩ => ⟨S1x512, .f32⟩
  | .local _ .vmem, ⟨25, _⟩ => ⟨S2000x512, .f32⟩
  | .local _ .vmem, ⟨26, _⟩ => ⟨S2000x512, .f32⟩
  | .local _ .vmem, ⟨27, _⟩ => ⟨S2000x512, .f32⟩
  | .local _ .vmem, ⟨28, _⟩ => ⟨S2000x512, .f32⟩
  | .local _ .vmem, ⟨29, _⟩ => ⟨S2000x512, .f32⟩
  | .local _ .vmem, ⟨30, _⟩ => ⟨S2000x512, .f32⟩
  | .local _ .vmem, ⟨31, _⟩ => ⟨S512x512, .f32⟩
  | .local _ .vmem, ⟨32, _⟩ => ⟨S512x512, .f32⟩
  | .local _ .vmem, ⟨33, _⟩ => ⟨S1x512, .f32⟩
  | .local _ .vmem, ⟨34, _⟩ => ⟨S2000x512, .f32⟩
  | .local _ .vmem, ⟨35, _⟩ => ⟨S2000x512, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_1 : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_7 : Ref sig .tc := ⟨.hbm, 63, rfl⟩
abbrev main_v40 : Ref sig .tc := ⟨.hbm, 64, rfl⟩
abbrev main_v41 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000x1 : S_.BroadcastsInDim S100000x1 (![] : Fin 0 → Fin S100000x1.rank)
  shapeCasts_S512_S1x512 : S512.ShapeCasts S1x512
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x512_S1x512_0_0 : ∀ a, (![0, 0] : Fin 2 → Nat) a + S1x512.size a ≤ S1x512.size a
  h_S1x512 : 0 < S1x512.numel
  broadcasts_S2000x1_S2000x512 : S2000x1.Broadcasts S2000x512
  broadcasts_S1x512_S2000x512 : S1x512.Broadcasts S2000x512
  shapeCasts_S1x512_S1x512 : S1x512.ShapeCasts S1x512
  inb_S2000x512_S2000x512_0_0 : ∀ a, (![0, 0] : Fin 2 → Nat) a + S2000x512.size a ≤ S2000x512.size a
  h_S2000x512 : 0 < S2000x512.numel
  bcast_S_S100000x512 : S_.BroadcastsInDim S100000x512 (![] : Fin 0 → Fin S100000x512.rank)
  shapeCasts_S2000x512_S2000x512 : S2000x512.ShapeCasts S2000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  gather_S100000x1_S400000x1_S400000x1_1_0_n_n_0_1_11_wf : GatherDims.WF S100000x1 S400000x1 S400000x1 [1] [0] [] [0] [] 1 ![1, 1]
  scatter_S100000x1_S400000x1_S400000x1_1_0_0_1_wf : ScatterDims.WF S100000x1 S400000x1 S400000x1 [1] [0] [0] 1
  gather_S100000x512_S400000x1_S400000x512_1_0_n_n_0_1_1512_wf : GatherDims.WF S100000x512 S400000x1 S400000x512 [1] [0] [] [0] [] 1 ![1, 512]
  scatter_S100000x512_S400000x1_S400000x512_1_0_0_1_wf : ScatterDims.WF S100000x512 S400000x1 S400000x512 [1] [0] [0] 1
  dot_S2000x512_S512x512_S2000x512_1_0_0_1_n_n_wf : DotDims.WF S2000x512 S512x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S100000x1.size a
  hwx0_0 : ∀ i : grid0.Coords, EltTy.bits .f32 = 32 ∨ (Rect.block (s := S100000x1) S2000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x512.size a ≤ S100000x512.size a
  hwx0_5 : ∀ i : grid0.Coords, EltTy.bits .f32 = 32 ∨ (Rect.block (s := S100000x512) S2000x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S100000x512.size a
  hwx1_0 : ∀ i : grid1.Coords, EltTy.bits .f32 = 32 ∨ (Rect.block (s := S100000x512) S2000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x512.size a ≤ S100000x512.size a
  hwx1_1 : ∀ i : grid1.Coords, EltTy.bits .f32 = 32 ∨ (Rect.block (s := S100000x512) S2000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x512.size a ≤ S100000x512.size a
  hwx1_5 : ∀ i : grid1.Coords, EltTy.bits .f32 = 32 ∨ (Rect.block (s := S100000x512) S2000x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S100000x512.size a
  hwx2_0 : ∀ i : grid2.Coords, EltTy.bits .f32 = 32 ∨ (Rect.block (s := S100000x512) S2000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x512.size a ≤ S100000x512.size a
  hwx2_1 : ∀ i : grid2.Coords, EltTy.bits .f32 = 32 ∨ (Rect.block (s := S100000x512) S2000x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .f32 = 32 ∨ (Rect.block (s := S512x512) S512x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .f32 = 32 ∨ (Rect.block (s := S512x512) S512x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x512.size a ≤ S100000x512.size a
  hwx2_5 : ∀ i : grid2.Coords, EltTy.bits .f32 = 32 ∨ (Rect.block (s := S100000x512) S2000x512.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S100000x512.size a
  hwx3_0 : ∀ i : grid3.Coords, EltTy.bits .f32 = 32 ∨ (Rect.block (s := S100000x512) S2000x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x512.size a ≤ S100000x512.size a
  hwx3_1 : ∀ i : grid3.Coords, EltTy.bits .f32 = 32 ∨ (Rect.block (s := S100000x512) S2000x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x512.size a ≤ S512x512.size a
  hwx3_2 : ∀ i : grid3.Coords, EltTy.bits .f32 = 32 ∨ (Rect.block (s := S512x512) S512x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S512x512.size a
  hwx3_3 : ∀ i : grid3.Coords, EltTy.bits .f32 = 32 ∨ (Rect.block (s := S512x512) S512x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x512.size a ≤ S1x512.size a
  hwx3_4 : ∀ i : grid3.Coords, EltTy.bits .f32 = 32 ∨ (Rect.block (s := S1x512) S1x512.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x512.size a ≤ S100000x512.size a
  hwx3_5 : ∀ i : grid3.Coords, EltTy.bits .f32 = 32 ∨ (Rect.block (s := S100000x512) S2000x512.size (cc3_transform_5 i) (hinb3_5 i)).WholeWords (EltTy.packing .f32)

variable [Facts₀]

def gather_S100000x1_S400000x1_S400000x1_1_0_n_n_0_1_11 : GatherDims S100000x1 S400000x1 S400000x1 where
  offsetDims := [1]
  collapsedSliceDims := [0]
  operandBatchingDims := []
  startIndicesBatchingDims := []
  startIndexMap := [0]
  indexVectorDim := 1
  sliceSizes := ![1, 1]
  wf := gather_S100000x1_S400000x1_S400000x1_1_0_n_n_0_1_11_wf
def scatter_S100000x1_S400000x1_S400000x1_1_0_0_1 : ScatterDims S100000x1 S400000x1 S400000x1 where
  updateWindowDims := [1]
  insertedWindowDims := [0]
  scatterDimsToOperandDims := [0]
  indexVectorDim := 1
  wf := scatter_S100000x1_S400000x1_S400000x1_1_0_0_1_wf
def gather_S100000x512_S400000x1_S400000x512_1_0_n_n_0_1_1512 : GatherDims S100000x512 S400000x1 S400000x512 where
  offsetDims := [1]
  collapsedSliceDims := [0]
  operandBatchingDims := []
  startIndicesBatchingDims := []
  startIndexMap := [0]
  indexVectorDim := 1
  sliceSizes := ![1, 512]
  wf := gather_S100000x512_S400000x1_S400000x512_1_0_n_n_0_1_1512_wf
def scatter_S100000x512_S400000x1_S400000x512_1_0_0_1 : ScatterDims S100000x512 S400000x1 S400000x512 where
  updateWindowDims := [1]
  insertedWindowDims := [0]
  scatterDimsToOperandDims := [0]
  indexVectorDim := 1
  wf := scatter_S100000x512_S400000x1_S400000x512_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf

abbrev win0_0 : Pipeline.Window sig grid0 :=
  Pipeline.Window.ofSpec (Memref.whole main_v13) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S2000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S2000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S2000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S2000x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v49) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S2000x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S512x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S512x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v50) S1x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51) S2000x512.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x1 : Shape := ⟨2, ![100000, 1]⟩
abbrev S2x400000 : Shape := ⟨2, ![2, 400000]⟩
abbrev S1x512 : Shape := ⟨2, ![1, 512]⟩
abbrev S512 : Shape := ⟨1, ![512]⟩
abbrev S512x512 : Shape := ⟨2, ![512, 512]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S100000x512 : Shape := ⟨2, ![100000, 512]⟩
abbrev S400000x512 : Shape := ⟨2, ![400000, 512]⟩

abbrev nBuf : Space → Nat
  | .hbm => 103
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S2x400000, .i32⟩
  | .hbm, ⟨2, _⟩ => ⟨S1x512, .f32⟩
  | .hbm, ⟨3, _⟩ => ⟨S512, .f32⟩
  | .hbm, ⟨4, _⟩ => ⟨S1x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S1x400000, .i32⟩
  | .hbm, ⟨15, _⟩ => ⟨S400000, .i32⟩
  | .hbm, ⟨16, _⟩ => ⟨S1x400000, .i32⟩
  | .hbm, ⟨17, _⟩ => ⟨S400000, .i32⟩
  | .hbm, ⟨18, _⟩ => ⟨S_, .i32⟩
  | .hbm, ⟨19, _⟩ => ⟨S400000, .i32⟩
  | .hbm, ⟨20, _⟩ => ⟨S400000, .i1⟩
  | .hbm, ⟨21, _⟩ => ⟨S_, .i32⟩
  | .hbm, ⟨22, _⟩ => ⟨S400000, .i32⟩
  | .hbm, ⟨23, _⟩ => ⟨S400000, .i32⟩
  | .hbm, ⟨24, _⟩ => ⟨S400000, .i32⟩
  | .hbm, ⟨25, _⟩ => ⟨S400000x1, .i32⟩
  | .hbm, ⟨26, _⟩ => ⟨S400000x1, .f32⟩
  | .hbm, ⟨27, _⟩ => ⟨S_, .f32⟩
  | .hbm, ⟨28, _⟩ => ⟨S100000x1, .f32⟩
  | .hbm, ⟨29, _⟩ => ⟨S400000x1, .i32⟩
  | .hbm, ⟨30, _⟩ => ⟨S100000x1, .f32⟩
  | .hbm, ⟨31, _⟩ => ⟨S100000x512, .f32⟩
  | .hbm, ⟨32, _⟩ => ⟨S1x512, .f32⟩
  | .hbm, ⟨33, _⟩ => ⟨S100000x512, .f32⟩
  | .hbm, ⟨34, _⟩ => ⟨S100000x512, .f32⟩
  | .hbm, ⟨35, _⟩ => ⟨S100000x512, .f32⟩
  | .hbm, ⟨36, _⟩ => ⟨S100000x512, .f32⟩
  | .hbm, ⟨37, _⟩ => ⟨S_, .f32⟩
  | .hbm, ⟨38, _⟩ => ⟨S100000x512, .f32⟩
  | .hbm, ⟨39, _⟩ => ⟨S100000x512, .f32⟩
  | .hbm, ⟨40, _⟩ => ⟨S_, .i32⟩
  | .hbm, ⟨41, _⟩ => ⟨S400000, .i32⟩
  | .hbm, ⟨42, _⟩ => ⟨S400000, .i1⟩
  | .hbm, ⟨43, _⟩ => ⟨S_, .i32⟩
  | .hbm, ⟨44, _⟩ => ⟨S400000, .i32⟩
  | .hbm, ⟨45, _⟩ => ⟨S400000, .i32⟩
  | .hbm, ⟨46, _⟩ => ⟨S400000, .i32⟩
  | .hbm, ⟨47, _⟩ => ⟨S400000x1, .i32⟩
  | .hbm, ⟨48, _⟩ => ⟨S400000x512, .f32⟩
  | .hbm, ⟨49, _⟩ => ⟨S_, .f32⟩
  | .hbm, ⟨50, _⟩ => ⟨S100000x512, .f32⟩
  | .hbm, ⟨51, _⟩ => ⟨S400000x1, .i32⟩
  | .hbm, ⟨52, _⟩ => ⟨S100000x512, .f32⟩
  | .hbm, ⟨53, _⟩ => ⟨S100000x512, .f32⟩
  | .hbm, ⟨54, _⟩ => ⟨S1x512, .f32⟩
  | .hbm, ⟨55, _⟩ => ⟨S100000x512, .f32⟩
  | .hbm, ⟨56, _⟩ => ⟨S100000x512, .f32⟩
  | .hbm, ⟨57, _⟩ => ⟨S100000x512, .f32⟩
  | .hbm, ⟨58, _⟩ => ⟨S100000x512, .f32⟩
  | .hbm, ⟨59, _⟩ => ⟨S_, .f32⟩
  | .hbm, ⟨60, _⟩ => ⟨S100000x512, .f32⟩
  | .hbm, ⟨61, _⟩ => ⟨S100000x512, .f32⟩
  | .hbm, ⟨62, _⟩ => ⟨S100000x512, .f32⟩
  | .hbm, ⟨63, _⟩ => ⟨S_, .i32⟩
  | .hbm, ⟨64, _⟩ => ⟨S400000, .i32⟩
  | .hbm, ⟨65, _⟩ => ⟨S400000, .i1⟩
  | .hbm, ⟨66, _⟩ => ⟨S_, .i32⟩
  | .hbm, ⟨67, _⟩ => ⟨S400000, .i32⟩
  | .hbm, ⟨68, _⟩ => ⟨S400000, .i32⟩
  | .hbm, ⟨69, _⟩ => ⟨S400000, .i32⟩
  | .hbm, ⟨70, _⟩ => ⟨S400000x1, .i32⟩
  | .hbm, ⟨71, _⟩ => ⟨S400000x512, .f32⟩
  | .hbm, ⟨72, _⟩ => ⟨S_, .f32⟩
  | .hbm, ⟨73, _⟩ => ⟨S100000x512, .f32⟩
  | .hbm, ⟨74, _⟩ => ⟨S400000x1, .i32⟩
  | .hbm, ⟨75, _⟩ => ⟨S100000x512, .f32⟩
  | .hbm, ⟨76, _⟩ => ⟨S100000x512, .f32⟩
  | .hbm, ⟨77, _⟩ => ⟨S1x512, .f32⟩
  | .hbm, ⟨78, _⟩ => ⟨S100000x512, .f32⟩
  | .hbm, ⟨79, _⟩ => ⟨S100000x512, .f32⟩
  | .hbm, ⟨80, _⟩ => ⟨S100000x512, .f32⟩
  | .hbm, ⟨81, _⟩ => ⟨S100000x512, .f32⟩
  | .hbm, ⟨82, _⟩ => ⟨S100000x512, .f32⟩
  | .hbm, ⟨83, _⟩ => ⟨S_, .i32⟩
  | .hbm, ⟨84, _⟩ => ⟨S400000, .i32⟩
  | .hbm, ⟨85, _⟩ => ⟨S400000, .i1⟩
  | .hbm, ⟨86, _⟩ => ⟨S_, .i32⟩
  | .hbm, ⟨87, _⟩ => ⟨S400000, .i32⟩
  | .hbm, ⟨88, _⟩ => ⟨S400000, .i32⟩
  | .hbm, ⟨89, _⟩ => ⟨S400000, .i32⟩
  | .hbm, ⟨90, _⟩ => ⟨S400000x1, .i32⟩
  | .hbm, ⟨91, _⟩ => ⟨S400000x512, .f32⟩
  | .hbm, ⟨92, _⟩ => ⟨S_, .f32⟩
  | .hbm, ⟨93, _⟩ => ⟨S100000x512, .f32⟩
  | .hbm, ⟨94, _⟩ => ⟨S400000x1, .i32⟩
  | .hbm, ⟨95, _⟩ => ⟨S100000x512, .f32⟩
  | .hbm, ⟨96, _⟩ => ⟨S100000x512, .f32⟩
  | .hbm, ⟨97, _⟩ => ⟨S1x512, .f32⟩
  | .hbm, ⟨98, _⟩ => ⟨S100000x512, .f32⟩
  | .hbm, ⟨99, _⟩ => ⟨S100000x512, .f32⟩
  | .hbm, ⟨100, _⟩ => ⟨S100000x512, .f32⟩
  | .hbm, ⟨101, _⟩ => ⟨S100000x512, .f32⟩
  | .hbm, ⟨102, _⟩ => ⟨S100000x512, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call0_cst : Ref sig .tc := ⟨.hbm, 37, rfl⟩
abbrev main_call0_v0 : Ref sig .tc := ⟨.hbm, 38, rfl⟩
abbrev main_v20 : Ref sig .tc := ⟨.hbm, 39, rfl⟩
abbrev main_c_1 : Ref sig .tc := ⟨.hbm, 40, rfl⟩
abbrev main_v21 : Ref sig .tc := ⟨.hbm, 41, rfl⟩
abbrev main_v22 : Ref sig .tc := ⟨.hbm, 42, rfl⟩
abbrev main_c_2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call1_cst : Ref sig .tc := ⟨.hbm, 59, rfl⟩
abbrev main_call1_v0 : Ref sig .tc := ⟨.hbm, 60, rfl⟩
abbrev main_v37 : Ref sig .tc := ⟨.hbm, 61, rfl⟩
abbrev main_v38 : Ref sig .tc := ⟨.hbm, 62, rfl⟩
abbrev main_c_4 : Ref sig .tc := ⟨.hbm, 63, rfl⟩
abbrev main_v39 : Ref sig .tc := ⟨.hbm, 64, rfl⟩
abbrev main_v40 : Ref sig .tc := ⟨.hbm, 65, rfl⟩
abbrev main_c_5 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_7 : Ref sig .tc := ⟨.hbm, 83, rfl⟩
abbrev main_v56 : Ref sig .tc := ⟨.hbm, 84, rfl⟩
abbrev main_v57 : Ref sig .tc := ⟨.hbm, 85, rfl⟩
abbrev main_c_8 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_9 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000x1 : S_.BroadcastsInDim S100000x1 (![] : Fin 0 → Fin S100000x1.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  gather_S100000x1_S400000x1_S400000x1_1_0_n_n_0_1_11_wf : GatherDims.WF S100000x1 S400000x1 S400000x1 [1] [0] [] [0] [] 1 ![1, 1]
  scatter_S100000x1_S400000x1_S400000x1_1_0_0_1_wf : ScatterDims.WF S100000x1 S400000x1 S400000x1 [1] [0] [0] 1
  dot_S100000x1_S1x512_S100000x512_1_0_0_1_n_n_wf : DotDims.WF S100000x1 S1x512 S100000x512 [1] [0] [0] [1] [] []
  gather_S100000x512_S400000x1_S400000x512_1_0_n_n_0_1_1512_wf : GatherDims.WF S100000x512 S400000x1 S400000x512 [1] [0] [] [0] [] 1 ![1, 512]
  scatter_S100000x512_S400000x1_S400000x512_1_0_0_1_wf : ScatterDims.WF S100000x512 S400000x1 S400000x512 [1] [0] [0] 1
  dot_S100000x512_S512x512_S100000x512_1_0_0_1_n_n_wf : DotDims.WF S100000x512 S512x512 S100000x512 [1] [0] [0] [1] [] []

variable [Facts₀]

def gather_S100000x1_S400000x1_S400000x1_1_0_n_n_0_1_11 : GatherDims S100000x1 S400000x1 S400000x1 where
  offsetDims := [1]
  collapsedSliceDims := [0]
  operandBatchingDims := []
  startIndicesBatchingDims := []
  startIndexMap := [0]
  indexVectorDim := 1
  sliceSizes := ![1, 1]
  wf := gather_S100000x1_S400000x1_S400000x1_1_0_n_n_0_1_11_wf
def scatter_S100000x1_S400000x1_S400000x1_1_0_0_1 : ScatterDims S100000x1 S400000x1 S400000x1 where
  updateWindowDims := [1]
  insertedWindowDims := [0]
  scatterDimsToOperandDims := [0]
  indexVectorDim := 1
  wf := scatter_S100000x1_S400000x1_S400000x1_1_0_0_1_wf
def dot_S100000x1_S1x512_S100000x512_1_0_0_1_n_n : DotDims S100000x1 S1x512 S100000x512 where
  lhsContracting := [1]
  rhsContracting := [0]
  lhsNonContracting := [0]
  rhsNonContracting := [1]
  lhsBatch := []
  rhsBatch := []
  wf := dot_S100000x1_S1x512_S100000x512_1_0_0_1_n_n_wf
def gather_S100000x512_S400000x1_S400000x512_1_0_n_n_0_1_1512 : GatherDims S100000x512 S400000x1 S400000x512 where
  offsetDims := [1]
  collapsedSliceDims := [0]
  operandBatchingDims := []
  startIndicesBatchingDims := []
  startIndexMap := [0]
  indexVectorDim := 1
  sliceSizes := ![1, 512]
  wf := gather_S100000x512_S400000x1_S400000x512_1_0_n_n_0_1_1512_wf
def scatter_S100000x512_S400000x1_S400000x512_1_0_0_1 : ScatterDims S100000x512 S400000x1 S400000x512 where
  updateWindowDims := [1]
  insertedWindowDims := [0]
  scatterDimsToOperandDims := [0]
  indexVectorDim := 1
  wf := scatter_S100000x512_S400000x1_S400000x512_1_0_0_1_wf
def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf

class Facts : Prop extends Facts₀ where

variable [Facts]
-- ==== Proof.KernelRun.lean ====
/-
  The idealized kernel program's run with its result named.

  @main is eight segments: four stretches of host operations, each followed by one of the four layers' regions. Running them
  in order from the launch memory, every weakly fair execution terminates without a fault in a state where each unscoped
  buffer of a core holds the contents `W8` of the last boundary — the fold of the host stretches and of the regions'
  write-backs through the launch memory. Read at the result buffer this names the result; read at an argument's buffer it
  walks back to the launch contents, since nothing writes an argument. (The frame claim is this statement without its
  first conjunct.)
-/
import proofs.«124885_j39599598469120_1_alg».proof.Proof.KernelIdealFrameP

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and every argument as launched. -/
theorem run_main : θ_run defs (onTc (τ := τ) (main (F := F))) ⟨m, fun _ => 0, ρ⟩ (fun r => ∀ c : Dev nD,
      r.2.mem ((c.tc : Thread nD τ).loc main_v51) = W8 m ρ c (Proc.devRef .tc main_v51) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v51 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.Run

end
-- ==== Proof.Layer.lean ====
/-
  One graph-convolution layer, entry by entry, on the extended reals.

  A layer takes the aggregated neighbour features `A` and the node features `X` (one row per node), two weight
  matrices `W1`, `W2` and a bias row `B`, and at row `p`, column `q` gives

      act ((Σₖ A(p,k)·W1(k,q) + Σₖ X(p,k)·W2(k,q)) + B(0,q))  [+ X(p,q)],

  where `act` is `max · 0` or the identity and the last summand is the residual. The first layer has one input
  feature, so each of its two sums has the single term `k = 0` and it has no residual.

  The row count is a parameter: a tile of rows of the arrays gives the same entries as the arrays themselves at the
  tile's rows (`lin_rows`, `lin1_rows`), because an entry depends on one row of `A` and of `X` only. The two
  programs group the three summands differently — (rel + root) + bias against (rel + bias) + root; addition on the
  extended reals is commutative and associative, infinities included, so the two agree everywhere
  (`lin_regroup`, `lin1_regroup`).
-/
import Idealize.ShloMosaic.PureOps.Ideal.Laws
import Idealize.ShloMosaic.Lib.ValueIdx

noncomputable section

namespace Cert.GraphConv

open Idealize.ShloMosaic Idealize.ShloMosaic.ValueIdx

/-- The float zero the rectifier compares against, as the extended real its word denotes. -/
abbrev zero : EReal := Ideal.ofBits .f32 0x00000000#32

/-- The layer's activation: the rectifier `max · 0`, or nothing. -/
def act : Bool → EReal → EReal
  | true, x => max x zero
  | false, x => x

/-- A layer with 512 input features at row `p`, column `q`, the residual `X(p,q)` added after the activation. -/
def lin (n : ℕ) (relu : Bool) (A X : (⟨2, ![n, 512]⟩ : Shape).Idx → EReal)
    (W1 W2 : (⟨2, ![512, 512]⟩ : Shape).Idx → EReal) (B : (⟨2, ![1, 512]⟩ : Shape).Idx → EReal)
    (p : Fin n) (q : Fin 512) : EReal :=
  act relu (((∑ k : Fin 512, A (ix2 p k) * W1 (ix2 k q)) + ∑ k : Fin 512, X (ix2 p k) * W2 (ix2 k q)) + B (ix2 0 q))
    + X (ix2 p q)

/-- The first layer (one input feature, rectified, no residual) at row `p`, column `q`. -/
def lin1 (n : ℕ) (A X : (⟨2, ![n, 1]⟩ : Shape).Idx → EReal) (W1 W2 B : (⟨2, ![1, 512]⟩ : Shape).Idx → EReal)
    (p : Fin n) (q : Fin 512) : EReal :=
  max ((A (ix2 p 0) * W1 (ix2 0 q) + X (ix2 p 0) * W2 (ix2 0 q)) + B (ix2 0 q)) zero

/-- A tile of rows: if `A'`, `X'` are the rows `r p` of `A`, `X`, the layer of the tile at `p` is the layer of the
    arrays at `r p`. -/
theorem lin_rows {n n' : ℕ} (relu : Bool) (A X : (⟨2, ![n, 512]⟩ : Shape).Idx → EReal)
    (A' X' : (⟨2, ![n', 512]⟩ : Shape).Idx → EReal) (W1 W2 : (⟨2, ![512, 512]⟩ : Shape).Idx → EReal)
    (B : (⟨2, ![1, 512]⟩ : Shape).Idx → EReal) (r : Fin n' → Fin n)
    (hA : ∀ p k, A' (ix2 p k) = A (ix2 (r p) k)) (hX : ∀ p k, X' (ix2 p k) = X (ix2 (r p) k)) (p : Fin n') (q : Fin 512) :
    lin n' relu A' X' W1 W2 B p q = lin n relu A X W1 W2 B (r p) q := by
  simp only [lin, hA, hX]

theorem lin1_rows {n n' : ℕ} (A X : (⟨2, ![n, 1]⟩ : Shape).Idx → EReal) (A' X' : (⟨2, ![n', 1]⟩ : Shape).Idx → EReal)
    (W1 W2 B : (⟨2, ![1, 512]⟩ : Shape).Idx → EReal) (r : Fin n' → Fin n)
    (hA : ∀ p k, A' (ix2 p k) = A (ix2 (r p) k)) (hX : ∀ p k, X' (ix2 p k) = X (ix2 (r p) k)) (p : Fin n') (q : Fin 512) :
    lin1 n' A' X' W1 W2 B p q = lin1 n A X W1 W2 B (r p) q := by
  simp only [lin1, hA, hX]

/-- (rel + bias) + root is (rel + root) + bias: the layer with its three summands grouped the other way. -/
theorem lin_regroup (n : ℕ) (relu : Bool) (A X : (⟨2, ![n, 512]⟩ : Shape).Idx → EReal)
    (W1 W2 : (⟨2, ![512, 512]⟩ : Shape).Idx → EReal) (B : (⟨2, ![1, 512]⟩ : Shape).Idx → EReal) (p : Fin n) (q : Fin 512) :
    act relu (((∑ k : Fin 512, A (ix2 p k) * W1 (ix2 k q)) + B (ix2 0 q)) + ∑ k : Fin 512, X (ix2 p k) * W2 (ix2 k q))
      + X (ix2 p q) = lin n relu A X W1 W2 B p q := by
  unfold lin; rw [add_right_comm]

theorem lin1_regroup (n : ℕ) (A X : (⟨2, ![n, 1]⟩ : Shape).Idx → EReal) (W1 W2 B : (⟨2, ![1, 512]⟩ : Shape).Idx → EReal)
    (p : Fin n) (q : Fin 512) :
    max ((A (ix2 p 0) * W1 (ix2 0 q) + B (ix2 0 q)) + X (ix2 p 0) * W2 (ix2 0 q)) zero = lin1 n A X W1 W2 B p q := by
  unfold lin1; rw [add_right_comm]

end Cert.GraphConv

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.LibColumn.lean ====
/-
  Two layout operations read at an index, for a per-row quantity kept as a column (a reduction over the last axis
  with the reduced axis kept as a unit axis): a vector of `a` entries cast to the column `[a, 1]`, and a column
  `[a, 1]` broadcast along its unit axis to `[a, b]`. Both are instances of the general readings of a shape cast
  (same row-major position) and of a broadcast (coordinate 0 on the operand's unit axes).
-/
import Idealize.ShloMosaic.Lib.Pipeline.Value
import Idealize.ShloMosaic.Lib.ValueIdx

namespace Cert.LibColumn

open Idealize.ShloMosaic Idealize.ShloMosaic.ValueIdx

variable {α : Type}

/-- A vector `[a]` cast to the column `[a, 1]` reads, at `(i, u)`, the vector at `i`, whatever the unit coordinate `u`:
    position `i · 1 + u = i` in both. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Payload.lean ====
/-
  What each kernel body stores, entry by entry, at the ideal instance.

  Every body loads a tile of 2000 rows of the aggregated features and of the node features, the two weight matrices and the
  bias row whole, and stores one 2000 x 512 tile. Read at row `p`, column `q` of the tile, the stored value is the layer of
  Layer.lean on the loaded tiles: the two matrix products into a zero accumulator are the sums over the 512 input features
  (a change of float format is the identity on the extended reals), the bias row is broadcast down the rows, and for the
  first layer each of the two one-feature columns is broadcast along its row and multiplied by its weight row.
-/
import proofs.«124885_j39599598469120_1_alg».proof.Proof.Gen.KernelIdeal.Skeleton
import proofs.«124885_j39599598469120_1_alg».proof.Proof.Layer
import proofs.«124885_j39599598469120_1_alg».proof.Proof.LibPlainDot
import proofs.«124885_j39599598469120_1_alg».proof.Proof.LibColumn
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.GraphConv

/-- The bodies' matrix products contract the left operand's columns with the right operand's rows, nothing batched. -/
theorem dot_plain : dot_S2000x512_S512x512_S2000x512_1_0_0_1_n_n = DotDims.plain 2000 512 512 := rfl

/-- Such a product into a zero accumulator, at row `p`, column `q`, is the sum over the contracted feature. -/
theorem matmul_at (l : FVec Ideal S2000x512 .bf16) (r : FVec Ideal S512x512 .bf16) (p : Fin 2000) (q : Fin 512) :
    matmul (DotDims.plain 2000 512 512) none l r (constant S2000x512 .f32 0x00000000#32) (ix2 p q)
      = ∑ k : Fin 512, l (ix2 p k) * r (ix2 k q) :=
  Cert.Lib.PlainDot.matmul_zero_apply 2000 512 512 none l r (ix2 p q)

/-- The first layer's stored tile: one input feature, rectified. -/
theorem pay0_apply (x0 x1 : Vec Ideal S2000x1 .f32) (x2 x3 x4 : Vec Ideal S1x512 .f32) (p : Fin 2000) (q : Fin 512) :
    k0_pay1 (F := Ideal) x0 x1 x2 x3 x4 (ix2 p q) = lin1 2000 x0 x1 x2 x3 x4 p q := by
  unfold k0_pay1
  simp only [shapeCast_self, addf_apply, mulf_apply, maximumf_apply, broadcast_apply]
  simp only [Cert.LibColumn.broadcastTo_a1_ab_apply, broadcastTo_1b_ab_apply]
  rfl

/-- The second layer's stored tile: rectified, then the node features added back. -/
theorem pay1_apply (x0 x1 : Vec Ideal S2000x512 .f32) (x2 x3 : Vec Ideal S512x512 .f32) (x4 : Vec Ideal S1x512 .f32)
    (p : Fin 2000) (q : Fin 512) :
    k1_pay1 (F := Ideal) x0 x1 x2 x3 x4 x1 (ix2 p q) = lin 2000 true x0 x1 x2 x3 x4 p q := by
  unfold k1_pay1
  simp only [shapeCast_self, addf_apply, maximumf_apply, broadcast_apply]
  rw [dot_plain]
  rw [matmul_at, matmul_at]
  rw [broadcastTo_1b_ab_apply]
  simp only [truncf_apply]
  rfl

/-- The third layer's stored tile: no rectifier, the node features added back. -/
theorem pay2_apply (x0 x1 : Vec Ideal S2000x512 .f32) (x2 x3 : Vec Ideal S512x512 .f32) (x4 : Vec Ideal S1x512 .f32)
    (p : Fin 2000) (q : Fin 512) :
    k2_pay1 (F := Ideal) x0 x1 x2 x3 x4 x1 (ix2 p q) = lin 2000 false x0 x1 x2 x3 x4 p q := by
  unfold k2_pay1
  simp only [shapeCast_self, addf_apply]
  rw [dot_plain]
  rw [matmul_at, matmul_at]
  rw [broadcastTo_1b_ab_apply]
  simp only [truncf_apply]
  rfl

/-- The fourth layer's stored tile: as the third's. -/
theorem pay3_apply (x0 x1 : Vec Ideal S2000x512 .f32) (x2 x3 : Vec Ideal S512x512 .f32) (x4 : Vec Ideal S1x512 .f32)
    (p : Fin 2000) (q : Fin 512) :
    k3_pay1 (F := Ideal) x0 x1 x2 x3 x4 x1 (ix2 p q) = lin 2000 false x0 x1 x2 x3 x4 p q := by
  unfold k3_pay1
  simp only [shapeCast_self, addf_apply]
  rw [dot_plain]
  rw [matmul_at, matmul_at]
  rw [broadcastTo_1b_ab_apply]
  simp only [truncf_apply]
  rfl

end Cert.KernelIdeal.Body

end
-- ==== Proof.Region0.lean ====
/-
  Region 0 of the kernel program (the first layer, one input feature): what its output array holds when it ends, as one
  function of the arrays it is entered with.

  The grid has 50 points. At point `t` the two one-column feature windows and the output window sit at block row `t`
  (2000 rows each) and the two weight rows and the bias row are the whole arrays; so the tile a point writes back is rows
  `2000 t … 2000 t + 1999` of the first layer of Layer.lean applied to the WHOLE arrays, every row of the output lies in
  exactly the point `row / 2000`'s tile, and the array ends as that layer of the entry contents. The entry contents `V`
  are a parameter: the run instantiates them with what the host operations before the region leave.
-/
import proofs.«124885_j39599598469120_1_alg».proof.Proof.KernelIdealFrameP
import proofs.«124885_j39599598469120_1_alg».proof.Proof.Payload
import Idealize.ShloMosaic.Lib.Pipeline.Value

noncomputable section

namespace Cert.KernelIdeal.Region0

open Cert.KernelIdeal Cert.KernelIdeal.Gen Cert.KernelIdeal.GenP Cert.KernelIdeal.Body Cert.GraphConv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature windows move with the output window down the rows and stay at column
    block 0; the weight and bias windows stay at block (0, 0); the output's row block is below 50. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 49 ∧ win0_5.index t (1 : Fin 2) = 0 :=
  (by decide +kernel : ∀ t : Fin grid0.N, _)

/-- Every row block is some point's. -/
theorem idx_onto : ∀ b : Fin 50, ∃ t : Fin cfg0.N, win0_5.index t = ![b.val, 0] :=
  (by decide +kernel : ∀ b : Fin 50, ∃ t : Fin grid0.N, win0_5.index t = ![b.val, 0])

/-- Row `p` of point `t`'s tile, as a row of the arrays. -/
def row (t : Fin cfg0.N) (p : Fin 2000) : Fin 100000 :=
  ⟨win0_5.index t (0 : Fin 2) * 2000 + p.val, by
    have h := (idx_facts t).2.2.2.2.2.2.2.2.2.2.1
    have hp := p.isLt
    omega⟩

/-- The aggregated-feature window's tile is rows `row t ·` of its one-column array. -/
theorem blkA (c : Dev nD) (t : Fin cfg0.N) (p : Fin 2000) (k : Fin 1) :
    (iblk0 V c 0 t : Vec Ideal S2000x1 .f32) (ix2 p k) = (V c main_v13 : S100000x1.Idx → EReal) (ix2 (row t p) k) := by
  obtain ⟨e0, e1, -⟩ := idx_facts t
  unfold iblk0
  rw [View.read_apply]
  show V c main_v13 _ = V c main_v13 _
  refine congrArg _ (funext fun a => Fin.ext ?_)
  match a with
  | ⟨0, _⟩ => show win0_0.index t (0 : Fin 2) * 2000 + 1 * p.val = win0_5.index t (0 : Fin 2) * 2000 + p.val; rw [e0]; omega
  | ⟨1, _⟩ => show win0_0.index t (1 : Fin 2) * 1 + 1 * k.val = k.val; rw [e1]; omega

/-- The node-feature window's tile is rows `row t ·` of its one-column array. -/
theorem blkX (c : Dev nD) (t : Fin cfg0.N) (p : Fin 2000) (k : Fin 1) :
    (iblk0 V c 1 t : Vec Ideal S2000x1 .f32) (ix2 p k) = (V c main_arg0 : S100000x1.Idx → EReal) (ix2 (row t p) k) := by
  obtain ⟨-, -, e0, e1, -⟩ := idx_facts t
  unfold iblk0
  rw [View.read_apply]
  show V c main_arg0 _ = V c main_arg0 _
  refine congrArg _ (funext fun a => Fin.ext ?_)
  match a with
  | ⟨0, _⟩ => show win0_1.index t (0 : Fin 2) * 2000 + 1 * p.val = win0_5.index t (0 : Fin 2) * 2000 + p.val; rw [e0]; omega
  | ⟨1, _⟩ => show win0_1.index t (1 : Fin 2) * 1 + 1 * k.val = k.val; rw [e1]; omega

/-- The first weight row's block is its whole array. -/
theorem blkW1 (c : Dev nD) (t : Fin cfg0.N) :
    (iblk0 V c 2 t : Vec Ideal S1x512 .f32) = (V c main_arg2 : S1x512.Idx → EReal) := by
  obtain ⟨-, -, -, -, e0, e1, -⟩ := idx_facts t
  funext y
  unfold iblk0
  rw [View.read_apply]
  show V c main_arg2 _ = V c main_arg2 _
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 512 + 1 * (y 1).val = (y 1).val; rw [e1]; omega

/-- The second weight row's block is its whole array. -/
theorem blkW2 (c : Dev nD) (t : Fin cfg0.N) :
    (iblk0 V c 3 t : Vec Ideal S1x512 .f32) = (V c main_arg4 : S1x512.Idx → EReal) := by
  obtain ⟨-, -, -, -, -, -, e0, e1, -⟩ := idx_facts t
  funext y
  unfold iblk0
  rw [View.read_apply]
  show V c main_arg4 _ = V c main_arg4 _
  refine congrArg _ (funext fun a => Fin.ext ?_)
  match a with
  | ⟨0, _⟩ => show win0_3.index t (0 : Fin 2) * 1 + 1 * (y 0).val = (y 0).val; rw [e0]; omega
  | ⟨1, _⟩ => show win0_3.index t (1 : Fin 2) * 512 + 1 * (y 1).val = (y 1).val; rw [e1]; omega

/-- The bias window's block is its whole array. -/
theorem blkB (c : Dev nD) (t : Fin cfg0.N) :
    (iblk0 V c 4 t : Vec Ideal S1x512 .f32) = (V c main_v14 : S1x512.Idx → EReal) := by
  obtain ⟨-, -, -, -, -, -, -, -, e0, e1, -⟩ := idx_facts t
  funext y
  unfold iblk0
  rw [View.read_apply]
  show V c main_v14 _ = V c main_v14 _
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 512 + 1 * (y 1).val = (y 1).val; rw [e1]; omega

/-- What the region leaves in its output array: the first layer of the arrays it is entered with. -/
def out (c : Dev nD) : S100000x512.Idx → EReal := fun i =>
  lin1 100000 (V c main_v13) (V c main_arg0) (V c main_arg2) (V c main_arg4) (V c main_v14) (i 0) (i 1)

/-- The output window's tile at point `t` sits at rows `row t ·`. -/
theorem embO (t : Fin cfg0.N) (p : Fin 2000) (q : Fin 512) :
    (((cfg0.win 5).blk t).view.emb (ix2 p q) : S100000x512.Idx) = ix2 (row t p) q := by
  obtain ⟨-, -, -, -, -, -, -, -, -, -, -, e1⟩ := idx_facts t
  refine funext fun a => Fin.ext ?_
  match a with
  | ⟨0, _⟩ => show win0_5.index t (0 : Fin 2) * 2000 + 1 * p.val = win0_5.index t (0 : Fin 2) * 2000 + p.val; omega
  | ⟨1, _⟩ => show win0_5.index t (1 : Fin 2) * 512 + 1 * q.val = q.val; rw [e1]; omega

/-- What point `t` writes back is its tile of `out`. -/
theorem flushed_eq (c : Dev nD) (t : Fin cfg0.N) :
    (dat0 V c).flushed 5 t = ((cfg0.win 5).blk t).view.read (Elt Ideal) (out V c) := by
  show (cfg0.win 5).cut (grid0.coords t) ((dat0 V c).after 5 t) = _
  rw [after0_5]
  unfold out0_5
  rw [View.canon_unit_zero hz]
  simp only [View.ld_unit_zero (S := S2000x1) hz, View.ld_unit_zero (S := S1x512) hz]
  refine funext fun (j : S2000x512.Idx) => ?_
  obtain ⟨p, q, rfl⟩ : ∃ (p : Fin 2000) (q : Fin 512), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
      = out V c (((cfg0.win 5).blk t).view.emb (ix2 p q))
  rw [embO t p q]
  refine (pay0_apply (iblk0 V c 0 t) (iblk0 V c 1 t) (iblk0 V c 2 t) (iblk0 V c 3 t) (iblk0 V c 4 t) p q).trans ?_
  rw [blkW1 V c t, blkW2 V c t, blkB V c t]
  exact lin1_rows _ _ _ _ _ _ _ (row t) (blkA V c t) (blkX V c t) p q

/-- An index of the output array is in point `t`'s tile iff each coordinate is in the tile's range on its axis. -/
theorem mem_blk (t : Fin cfg0.N) (i : S100000x512.Idx) :
    i ∈ ((cfg0.win 5).blk t).view.set ↔ ∀ a : Fin 2, win0_5.index t a * S2000x512.size a ≤ (i a).val ∧ (i a).val < win0_5.index t a * S2000x512.size a + S2000x512.size a := by
  show i ∈ ((View.whole main_v15).slice (win0_5.rect t)).set ↔ _
  rw [View.set_slice_whole, Rect.mem_set_unit]
  exact Iff.rfl

/-- Every index of the output array is in the tile of the point whose row block is `row / 2000`. -/
theorem cover (i : S100000x512.Idx) : ∃ t : Fin cfg0.N, (cfg0.win 5).flush t = true ∧ i ∈ ((cfg0.win 5).blk t).view.set := by
  have hi0 : (i 0).val < 100000 := (i 0).isLt
  have hi1 : (i 1).val < 512 := (i 1).isLt
  obtain ⟨t, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 512 ≤ (i 1).val ∧ (i 1).val < win0_5.index t (1 : Fin 2) * 512 + 512; omega

/-- The output array when the region ends. -/
theorem final (c : Dev nD) : (dat0 V c).arrAt 5 cfg0.N = out V c :=
  (dat0 V c).arrAt_eq_of_cover 5 (out V c) (fun t _ => flushed_eq V c t) cover

end Cert.KernelIdeal.Region0

end
-- ==== Proof.Region1.lean ====
/-
  Region 1 of the kernel program: what its output array holds when it ends, as one function of the arrays it is entered with.

  The grid has 50 points. At point `t` the two feature windows and the output window sit at block row `t` (2000 rows each)
  and the weight and bias windows are the whole arrays; so the tile a point writes back is rows `2000 t … 2000 t + 1999` of the
  layer of Layer.lean applied to the WHOLE arrays (an entry of the layer depends on one row of the features only), every
  row of the output lies in exactly the point `row / 2000`'s tile, and the array ends as that layer of the entry contents.
  The entry contents `V` are a parameter: the run instantiates them with what the host operations before the region leave.
-/
import proofs.«124885_j39599598469120_1_alg».proof.Proof.KernelIdealFrameP
import proofs.«124885_j39599598469120_1_alg».proof.Proof.Payload
import Idealize.ShloMosaic.Lib.Pipeline.Value

noncomputable section

namespace Cert.KernelIdeal.Region1

open Cert.KernelIdeal Cert.KernelIdeal.Gen Cert.KernelIdeal.GenP Cert.KernelIdeal.Body Cert.GraphConv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature windows move with the output window down the rows and stay at column
    block 0; the weight and bias windows stay at block (0, 0); the output's row block is below 50. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 49 ∧ win1_5.index t (1 : Fin 2) = 0 :=
  (by decide +kernel : ∀ t : Fin grid1.N, _)

/-- Every row block is some point's. -/
theorem idx_onto : ∀ b : Fin 50, ∃ t : Fin cfg1.N, win1_5.index t = ![b.val, 0] :=
  (by decide +kernel : ∀ b : Fin 50, ∃ t : Fin grid1.N, win1_5.index t = ![b.val, 0])

/-- Row `p` of point `t`'s tile, as a row of the arrays. -/
def row (t : Fin cfg1.N) (p : Fin 2000) : Fin 100000 :=
  ⟨win1_5.index t (0 : Fin 2) * 2000 + p.val, by
    have h := (idx_facts t).2.2.2.2.2.2.2.2.2.2.1
    have hp := p.isLt
    omega⟩

/-- The aggregated-feature window's tile is rows `row t ·` of its array. -/
theorem blkA (c : Dev nD) (t : Fin cfg1.N) (p : Fin 2000) (k : Fin 512) :
    (iblk1 V c 0 t : Vec Ideal S2000x512 .f32) (ix2 p k) = (V c main_v25 : S100000x512.Idx → EReal) (ix2 (row t p) k) := by
  obtain ⟨e0, e1, -⟩ := idx_facts t
  unfold iblk1
  rw [View.read_apply]
  show V c main_v25 _ = V c main_v25 _
  refine congrArg _ (funext fun a => Fin.ext ?_)
  match a with
  | ⟨0, _⟩ => show win1_0.index t (0 : Fin 2) * 2000 + 1 * p.val = win1_5.index t (0 : Fin 2) * 2000 + p.val; rw [e0]; omega
  | ⟨1, _⟩ => show win1_0.index t (1 : Fin 2) * 512 + 1 * k.val = k.val; rw [e1]; omega

/-- The node-feature window's tile is rows `row t ·` of its array. -/
theorem blkX (c : Dev nD) (t : Fin cfg1.N) (p : Fin 2000) (k : Fin 512) :
    (iblk1 V c 1 t : Vec Ideal S2000x512 .f32) (ix2 p k) = (V c main_v15 : S100000x512.Idx → EReal) (ix2 (row t p) k) := by
  obtain ⟨-, -, e0, e1, -⟩ := idx_facts t
  unfold iblk1
  rw [View.read_apply]
  show V c main_v15 _ = V c main_v15 _
  refine congrArg _ (funext fun a => Fin.ext ?_)
  match a with
  | ⟨0, _⟩ => show win1_1.index t (0 : Fin 2) * 2000 + 1 * p.val = win1_5.index t (0 : Fin 2) * 2000 + p.val; rw [e0]; omega
  | ⟨1, _⟩ => show win1_1.index t (1 : Fin 2) * 512 + 1 * k.val = k.val; rw [e1]; omega

/-- The first weight window's block is its whole array. -/
theorem blkW1 (c : Dev nD) (t : Fin cfg1.N) :
    (iblk1 V c 2 t : Vec Ideal S512x512 .f32) = (V c main_arg5 : S512x512.Idx → EReal) := by
  obtain ⟨-, -, -, -, e0, e1, -⟩ := idx_facts t
  funext y
  unfold iblk1
  rw [View.read_apply]
  show V c main_arg5 _ = V c main_arg5 _
  refine congrArg _ (funext fun a => Fin.ext ?_)
  match a with
  | ⟨0, _⟩ => show win1_2.index t (0 : Fin 2) * 512 + 1 * (y 0).val = (y 0).val; rw [e0]; omega
  | ⟨1, _⟩ => show win1_2.index t (1 : Fin 2) * 512 + 1 * (y 1).val = (y 1).val; rw [e1]; omega

/-- The second weight window's block is its whole array. -/
theorem blkW2 (c : Dev nD) (t : Fin cfg1.N) :
    (iblk1 V c 3 t : Vec Ideal S512x512 .f32) = (V c main_arg7 : S512x512.Idx → EReal) := by
  obtain ⟨-, -, -, -, -, -, e0, e1, -⟩ := idx_facts t
  funext y
  unfold iblk1
  rw [View.read_apply]
  show V c main_arg7 _ = V c main_arg7 _
  refine congrArg _ (funext fun a => Fin.ext ?_)
  match a with
  | ⟨0, _⟩ => show win1_3.index t (0 : Fin 2) * 512 + 1 * (y 0).val = (y 0).val; rw [e0]; omega
  | ⟨1, _⟩ => show win1_3.index t (1 : Fin 2) * 512 + 1 * (y 1).val = (y 1).val; rw [e1]; omega

/-- The bias window's block is its whole array. -/
theorem blkB (c : Dev nD) (t : Fin cfg1.N) :
    (iblk1 V c 4 t : Vec Ideal S1x512 .f32) = (V c main_v26 : S1x512.Idx → EReal) := by
  obtain ⟨-, -, -, -, -, -, -, -, e0, e1, -⟩ := idx_facts t
  funext y
  unfold iblk1
  rw [View.read_apply]
  show V c main_v26 _ = V c main_v26 _
  refine congrArg _ (funext fun a => Fin.ext ?_)
  match a with
  | ⟨0, _⟩ => show win1_4.index t (0 : Fin 2) * 1 + 1 * (y 0).val = (y 0).val; rw [e0]; omega
  | ⟨1, _⟩ => show win1_4.index t (1 : Fin 2) * 512 + 1 * (y 1).val = (y 1).val; rw [e1]; omega

/-- What the region leaves in its output array: the layer of the arrays it is entered with. -/
def out (c : Dev nD) : S100000x512.Idx → EReal := fun i =>
  lin 100000 true (V c main_v25) (V c main_v15) (V c main_arg5) (V c main_arg7) (V c main_v26) (i 0) (i 1)

/-- The output window's tile at point `t` sits at rows `row t ·`. -/
theorem embO (t : Fin cfg1.N) (p : Fin 2000) (q : Fin 512) :
    (((cfg1.win 5).blk t).view.emb (ix2 p q) : S100000x512.Idx) = ix2 (row t p) q := by
  obtain ⟨-, -, -, -, -, -, -, -, -, -, -, e1⟩ := idx_facts t
  refine funext fun a => Fin.ext ?_
  match a with
  | ⟨0, _⟩ => show win1_5.index t (0 : Fin 2) * 2000 + 1 * p.val = win1_5.index t (0 : Fin 2) * 2000 + p.val; omega
  | ⟨1, _⟩ => show win1_5.index t (1 : Fin 2) * 512 + 1 * q.val = q.val; rw [e1]; omega

/-- What point `t` writes back is its tile of `out`. -/
theorem flushed_eq (c : Dev nD) (t : Fin cfg1.N) :
    (dat1 V c).flushed 5 t = ((cfg1.win 5).blk t).view.read (Elt Ideal) (out V c) := by
  show (cfg1.win 5).cut (grid1.coords t) ((dat1 V c).after 5 t) = _
  rw [after1_5]
  unfold out1_5
  rw [View.canon_unit_zero hz]
  simp only [View.ld_unit_zero (S := S2000x512) hz, View.ld_unit_zero (S := S512x512) hz, View.ld_unit_zero (S := S1x512) hz]
  refine funext fun (j : S2000x512.Idx) => ?_
  obtain ⟨p, q, rfl⟩ : ∃ (p : Fin 2000) (q : Fin 512), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 1 t) (ix2 p q)
      = out V c (((cfg1.win 5).blk t).view.emb (ix2 p q))
  rw [embO t p q]
  refine (pay1_apply (iblk1 V c 0 t) (iblk1 V c 1 t) (iblk1 V c 2 t) (iblk1 V c 3 t) (iblk1 V c 4 t) p q).trans ?_
  rw [blkW1 V c t, blkW2 V c t, blkB V c t]
  exact lin_rows true _ _ _ _ _ _ _ (row t) (blkA V c t) (blkX V c t) p q

/-- An index of the output array is in point `t`'s tile iff each coordinate is in the tile's range on its axis. -/
theorem mem_blk (t : Fin cfg1.N) (i : S100000x512.Idx) :
    i ∈ ((cfg1.win 5).blk t).view.set ↔ ∀ a : Fin 2, win1_5.index t a * S2000x512.size a ≤ (i a).val ∧ (i a).val < win1_5.index t a * S2000x512.size a + S2000x512.size a := by
  show i ∈ ((View.whole main_v27).slice (win1_5.rect t)).set ↔ _
  rw [View.set_slice_whole, Rect.mem_set_unit]
  exact Iff.rfl

/-- Every index of the output array is in the tile of the point whose row block is `row / 2000`. -/
theorem cover (i : S100000x512.Idx) : ∃ t : Fin cfg1.N, (cfg1.win 5).flush t = true ∧ i ∈ ((cfg1.win 5).blk t).view.set := by
  have hi0 : (i 0).val < 100000 := (i 0).isLt
  have hi1 : (i 1).val < 512 := (i 1).isLt
  obtain ⟨t, ht⟩ := idx_onto ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 512 ≤ (i 1).val ∧ (i 1).val < win1_5.index t (1 : Fin 2) * 512 + 512; omega

/-- The output array when the region ends. -/
theorem final (c : Dev nD) : (dat1 V c).arrAt 5 cfg1.N = out V c :=
  (dat1 V c).arrAt_eq_of_cover 5 (out V c) (fun t _ => flushed_eq V c t) cover

end Cert.KernelIdeal.Region1

end
-- ==== Proof.Region2.lean ====
/-
  Region 2 of the kernel program: what its output array holds when it ends, as one function of the arrays it is entered with.

  The grid has 50 points. At point `t` the two feature windows and the output window sit at block row `t` (2000 rows each)
  and the weight and bias windows are the whole arrays; so the tile a point writes back is rows `2000 t … 2000 t + 1999` of the
  layer of Layer.lean applied to the WHOLE arrays (an entry of the layer depends on one row of the features only), every
  row of the output lies in exactly the point `row / 2000`'s tile, and the array ends as that layer of the entry contents.
  The entry contents `V` are a parameter: the run instantiates them with what the host operations before the region leave.
-/
import proofs.«124885_j39599598469120_1_alg».proof.Proof.KernelIdealFrameP
import proofs.«124885_j39599598469120_1_alg».proof.Proof.Payload
import Idealize.ShloMosaic.Lib.Pipeline.Value

noncomputable section

namespace Cert.KernelIdeal.Region2

open Cert.KernelIdeal Cert.KernelIdeal.Gen Cert.KernelIdeal.GenP Cert.KernelIdeal.Body Cert.GraphConv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature windows move with the output window down the rows and stay at column
    block 0; the weight and bias windows stay at block (0, 0); the output's row block is below 50. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 49 ∧ win2_5.index t (1 : Fin 2) = 0 :=
  (by decide +kernel : ∀ t : Fin grid2.N, _)

/-- Every row block is some point's. -/
theorem idx_onto : ∀ b : Fin 50, ∃ t : Fin cfg2.N, win2_5.index t = ![b.val, 0] :=
  (by decide +kernel : ∀ b : Fin 50, ∃ t : Fin grid2.N, win2_5.index t = ![b.val, 0])

/-- Row `p` of point `t`'s tile, as a row of the arrays. -/
def row (t : Fin cfg2.N) (p : Fin 2000) : Fin 100000 :=
  ⟨win2_5.index t (0 : Fin 2) * 2000 + p.val, by
    have h := (idx_facts t).2.2.2.2.2.2.2.2.2.2.1
    have hp := p.isLt
    omega⟩

/-- The aggregated-feature window's tile is rows `row t ·` of its array. -/
theorem blkA (c : Dev nD) (t : Fin cfg2.N) (p : Fin 2000) (k : Fin 512) :
    (iblk2 V c 0 t : Vec Ideal S2000x512 .f32) (ix2 p k) = (V c main_v37 : S100000x512.Idx → EReal) (ix2 (row t p) k) := by
  obtain ⟨e0, e1, -⟩ := idx_facts t
  unfold iblk2
  rw [View.read_apply]
  show V c main_v37 _ = V c main_v37 _
  refine congrArg _ (funext fun a => Fin.ext ?_)
  match a with
  | ⟨0, _⟩ => show win2_0.index t (0 : Fin 2) * 2000 + 1 * p.val = win2_5.index t (0 : Fin 2) * 2000 + p.val; rw [e0]; omega
  | ⟨1, _⟩ => show win2_0.index t (1 : Fin 2) * 512 + 1 * k.val = k.val; rw [e1]; omega

/-- The node-feature window's tile is rows `row t ·` of its array. -/
theorem blkX (c : Dev nD) (t : Fin cfg2.N) (p : Fin 2000) (k : Fin 512) :
    (iblk2 V c 1 t : Vec Ideal S2000x512 .f32) (ix2 p k) = (V c main_v27 : S100000x512.Idx → EReal) (ix2 (row t p) k) := by
  obtain ⟨-, -, e0, e1, -⟩ := idx_facts t
  unfold iblk2
  rw [View.read_apply]
  show V c main_v27 _ = V c main_v27 _
  refine congrArg _ (funext fun a => Fin.ext ?_)
  match a with
  | ⟨0, _⟩ => show win2_1.index t (0 : Fin 2) * 2000 + 1 * p.val = win2_5.index t (0 : Fin 2) * 2000 + p.val; rw [e0]; omega
  | ⟨1, _⟩ => show win2_1.index t (1 : Fin 2) * 512 + 1 * k.val = k.val; rw [e1]; omega

/-- The first weight window's block is its whole array. -/
theorem blkW1 (c : Dev nD) (t : Fin cfg2.N) :
    (iblk2 V c 2 t : Vec Ideal S512x512 .f32) = (V c main_arg8 : S512x512.Idx → EReal) := by
  obtain ⟨-, -, -, -, e0, e1, -⟩ := idx_facts t
  funext y
  unfold iblk2
  rw [View.read_apply]
  show V c main_arg8 _ = V c main_arg8 _
  refine congrArg _ (funext fun a => Fin.ext ?_)
  match a with
  | ⟨0, _⟩ => show win2_2.index t (0 : Fin 2) * 512 + 1 * (y 0).val = (y 0).val; rw [e0]; omega
  | ⟨1, _⟩ => show win2_2.index t (1 : Fin 2) * 512 + 1 * (y 1).val = (y 1).val; rw [e1]; omega

/-- The second weight window's block is its whole array. -/
theorem blkW2 (c : Dev nD) (t : Fin cfg2.N) :
    (iblk2 V c 3 t : Vec Ideal S512x512 .f32) = (V c main_arg10 : S512x512.Idx → EReal) := by
  obtain ⟨-, -, -, -, -, -, e0, e1, -⟩ := idx_facts t
  funext y
  unfold iblk2
  rw [View.read_apply]
  show V c main_arg10 _ = V c main_arg10 _
  refine congrArg _ (funext fun a => Fin.ext ?_)
  match a with
  | ⟨0, _⟩ => show win2_3.index t (0 : Fin 2) * 512 + 1 * (y 0).val = (y 0).val; rw [e0]; omega
  | ⟨1, _⟩ => show win2_3.index t (1 : Fin 2) * 512 + 1 * (y 1).val = (y 1).val; rw [e1]; omega

/-- The bias window's block is its whole array. -/
theorem blkB (c : Dev nD) (t : Fin cfg2.N) :
    (iblk2 V c 4 t : Vec Ideal S1x512 .f32) = (V c main_v38 : S1x512.Idx → EReal) := by
  obtain ⟨-, -, -, -, -, -, -, -, e0, e1, -⟩ := idx_facts t
  funext y
  unfold iblk2
  rw [View.read_apply]
  show V c main_v38 _ = V c main_v38 _
  refine congrArg _ (funext fun a => Fin.ext ?_)
  match a with
  | ⟨0, _⟩ => show win2_4.index t (0 : Fin 2) * 1 + 1 * (y 0).val = (y 0).val; rw [e0]; omega
  | ⟨1, _⟩ => show win2_4.index t (1 : Fin 2) * 512 + 1 * (y 1).val = (y 1).val; rw [e1]; omega

/-- What the region leaves in its output array: the layer of the arrays it is entered with. -/
def out (c : Dev nD) : S100000x512.Idx → EReal := fun i =>
  lin 100000 false (V c main_v37) (V c main_v27) (V c main_arg8) (V c main_arg10) (V c main_v38) (i 0) (i 1)

/-- The output window's tile at point `t` sits at rows `row t ·`. -/
theorem embO (t : Fin cfg2.N) (p : Fin 2000) (q : Fin 512) :
    (((cfg2.win 5).blk t).view.emb (ix2 p q) : S100000x512.Idx) = ix2 (row t p) q := by
  obtain ⟨-, -, -, -, -, -, -, -, -, -, -, e1⟩ := idx_facts t
  refine funext fun a => Fin.ext ?_
  match a with
  | ⟨0, _⟩ => show win2_5.index t (0 : Fin 2) * 2000 + 1 * p.val = win2_5.index t (0 : Fin 2) * 2000 + p.val; omega
  | ⟨1, _⟩ => show win2_5.index t (1 : Fin 2) * 512 + 1 * q.val = q.val; rw [e1]; omega

/-- What point `t` writes back is its tile of `out`. -/
theorem flushed_eq (c : Dev nD) (t : Fin cfg2.N) :
    (dat2 V c).flushed 5 t = ((cfg2.win 5).blk t).view.read (Elt Ideal) (out V c) := by
  show (cfg2.win 5).cut (grid2.coords t) ((dat2 V c).after 5 t) = _
  rw [after2_5]
  unfold out2_5
  rw [View.canon_unit_zero hz]
  simp only [View.ld_unit_zero (S := S2000x512) hz, View.ld_unit_zero (S := S512x512) hz, View.ld_unit_zero (S := S1x512) hz]
  refine funext fun (j : S2000x512.Idx) => ?_
  obtain ⟨p, q, rfl⟩ : ∃ (p : Fin 2000) (q : Fin 512), j = ix2 p q := ⟨j 0, j 1, eq_ix2 j⟩
  show k2_pay1 (F := Ideal) (iblk2 V c 0 t) (iblk2 V c 1 t) (iblk2 V c 2 t) (iblk2 V c 3 t) (iblk2 V c 4 t) (iblk2 V c 1 t) (ix2 p q)
      = out V c (((cfg2.win 5).blk t).view.emb (ix2 p q))
  rw [embO t p q]
  refine (pay2_apply (iblk2 V c 0 t) (iblk2 V c 1 t) (iblk2 V c 2 t) (iblk2 V c 3 t) (iblk2 V c 4 t) p q).trans ?_
  rw [blkW1 V c t, blkW2 V c t, blkB V c t]
  exact lin_rows false _ _ _ _ _ _ _ (row t) (blkA V c t) (blkX V c t) p q

/-- An index of the output array is in point `t`'s tile iff each coordinate is in the tile's range on its axis. -/
theorem mem_blk (t : Fin cfg2.N) (i : S100000x512.Idx) :
    i ∈ ((cfg2.win 5).blk t).view.set ↔ ∀ a : Fin 2, win2_5.index t a * S2000x512.size a ≤ (i a).val ∧ (i a).val < win2_5.index t a * S2000x512.size a + S2000x512.size a := by
  show i ∈ ((View.whole main_v39).slice (win2_5.rect t)).set ↔ _
  rw [View.set_slice_whole, Rect.mem_set_unit]
  exact Iff.rfl

/-- Every index of the output array is in the tile of the point whose row block is `row / 2000`. -/
theorem cover (i : S100000x512.Idx) : ∃ t : Fin cfg2.N, (cfg2.win 5).flush t = true ∧ i ∈ ((cfg2.win 5).blk t).view.set := by
  have hi0 : (i 0).val < 100000 := (i 0).isLt
  have hi1 : (i 1).val < 512 := (i 1).isLt
  obtain ⟨t, ht⟩ := idx_onto ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 512 ≤ (i 1).val ∧ (i 1).val < win2_5.index t (1 : Fin 2) * 512 + 512; omega

/-- The output array when the region ends. -/
theorem final (c : Dev nD) : (dat2 V c).arrAt 5 cfg2.N = out V c :=
  (dat2 V c).arrAt_eq_of_cover 5 (out V c) (fun t _ => flushed_eq V c t) cover

end Cert.KernelIdeal.Region2

end
-- ==== Proof.Region3.lean ====
/-
  Region 3 of the kernel program: what its output array holds when it ends, as one function of the arrays it is entered with.

  The grid has 50 points. At point `t` the two feature windows and the output window sit at block row `t` (2000 rows each)
  and the weight and bias windows are the whole arrays; so the tile a point writes back is rows `2000 t … 2000 t + 1999` of the
  layer of Layer.lean applied to the WHOLE arrays (an entry of the layer depends on one row of the features only), every
  row of the output lies in exactly the point `row / 2000`'s tile, and the array ends as that layer of the entry contents.
  The entry contents `V` are a parameter: the run instantiates them with what the host operations before the region leave.
-/
import proofs.«124885_j39599598469120_1_alg».proof.Proof.KernelIdealFrameP
import proofs.«124885_j39599598469120_1_alg».proof.Proof.Payload
import Idealize.ShloMosaic.Lib.Pipeline.Value

noncomputable section

namespace Cert.KernelIdeal.Region3

open Cert.KernelIdeal Cert.KernelIdeal.Gen Cert.KernelIdeal.GenP Cert.KernelIdeal.Body Cert.GraphConv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature windows move with the output window down the rows and stay at column
    block 0; the weight and bias windows stay at block (0, 0); the output's row block is below 50. -/
theorem idx_facts : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) ≤ 49 ∧ win3_5.index t (1 : Fin 2) = 0 :=
  (by decide +kernel : ∀ t : Fin grid3.N, _)

/-- Every row block is some point's. -/
theorem idx_onto : ∀ b : Fin 50, ∃ t : Fin cfg3.N, win3_5.index t = ![b.val, 0] :=
  (by decide +kernel : ∀ b : Fin 50, ∃ t : Fin grid3.N, win3_5.index t = ![b.val, 0])

/-- Row `p` of point `t`'s tile, as a row of the arrays. -/
def row (t : Fin cfg3.N) (p : Fin 2000) : Fin 100000 :=
  ⟨win3_5.index t (0 : Fin 2) * 2000 + p.val, by
    have h := (idx_facts t).2.2.2.2.2.2.2.2.2.2.1
    have hp := p.isLt
    omega⟩

/-- The aggregated-feature window's tile is rows `row t ·` of its array. -/
theorem blkA (c : Dev nD) (t : Fin cfg3.N) (p : Fin 2000) (k : Fin 512) :
    (iblk3 V c 0 t : Vec Ideal S2000x512 .f32) (ix2 p k) = (V c main_v49 : S100000x512.Idx → EReal) (ix2 (row t p) k) := by
  obtain ⟨e0, e1, -⟩ := idx_facts t
  unfold iblk3
  rw [View.read_apply]
  show V c main_v49 _ = V c main_v49 _
  refine congrArg _ (funext fun a => Fin.ext ?_)
  match a with
  | ⟨0, _⟩ => show win3_0.index t (0 : Fin 2) * 2000 + 1 * p.val = win3_5.index t (0 : Fin 2) * 2000 + p.val; rw [e0]; omega
  | ⟨1, _⟩ => show win3_0.index t (1 : Fin 2) * 512 + 1 * k.val = k.val; rw [e1]; omega

/-- The node-feature window's tile is rows `row t ·` of its array. -/
theorem blkX (c : Dev nD) (t : Fin cfg3.N) (p : Fin 2000) (k : Fin 512) :
    (iblk3 V c 1 t : Vec Ideal S2000x512 .f32) (ix2 p k) = (V c main_v39 : S100000x512.Idx → EReal) (ix2 (row t p) k) := by
  obtain ⟨-, -, e0, e1, -⟩ := idx_facts t
  unfold iblk3
  rw [View.read_apply]
  show V c main_v39 _ = V c main_v39 _
  refine congrArg _ (funext fun a => Fin.ext ?_)
  match a with
  | ⟨0, _⟩ => show win3_1.index t (0 : Fin 2) * 2000 + 1 * p.val = win3_5.index t (0 : Fin 2) * 2000 + p.val; rw [e0]; omega
  | ⟨1, _⟩ => show win3_1.index t (1 : Fin 2) * 512 + 1 * k.val = k.val; rw [e1]; omega

/-- The first weight window's block is its whole array. -/
theorem blkW1 (c : Dev nD) (t : Fin cfg3.N) :
    (iblk3 V c 2 t : Vec Ideal S512x512 .f32) = (V c main_arg11 : S512x512.Idx → EReal) := by
  obtain ⟨-, -, -, -, e0, e1, -⟩ := idx_facts t
  funext y
  unfold iblk3
  rw [View.read_apply]
  show V c main_arg11 _ = V c main_arg11 _
  refine congrArg _ (funext fun a => Fin.ext ?_)
  match a with
  | ⟨0, _⟩ => show win3_2.index t (0 : Fin 2) * 512 + 1 * (y 0).val = (y 0).val; rw [e0]; omega
  | ⟨1, _⟩ => show win3_2.index t (1 : Fin 2) * 512 + 1 * (y 1).val = (y 1).val; rw [e1]; omega

/-- The second weight window's block is its whole array. -/
theorem blkW2 (c : Dev nD) (t : Fin cfg3.N) :
    (iblk3 V c 3 t : Vec Ideal S512x512 .f32) = (V c main_arg13 : S512x512.Idx → EReal) := by
  obtain ⟨-, -, -, -, -, -, e0, e1, -⟩ := idx_facts t
  funext y
  unfold iblk3
  rw [View.read_apply]
  show V c main_arg13 _ = V c main_arg13 _
  refine congrArg _ (funext fun a => Fin.ext ?_)
  match a with
  | ⟨0, _⟩ => show win3_3.index t (0 : Fin 2) * 512 + 1 * (y 0).val = (y 0).val; rw [e0]; omega
  | ⟨1, _⟩ => show win3_3.index t (1 : Fin 2) * 512 + 1 * (y 1).val = (y 1).val; rw [e1]; omega

/-- The bias window's block is its whole array. -/
theorem blkB (c : Dev nD) (t : Fin cfg3.N) :
    (iblk3 V c 4 t : Vec Ideal S1x512 .f32) = (V c main_v50 : S1x512.Idx → EReal) := by
  obtain ⟨-, -, -, -, -, -, -, -, e0, e1, -⟩ := idx_facts t
  funext y
  unfold iblk3
  rw [View.read_apply]
  show V c main_v50 _ = V c main_v50 _
  refine congrArg _ (funext fun a => Fin.ext ?_)
  match a with
  | ⟨0, _⟩ => show win3_4.index t (0 : Fin 2) * 1 + 1 * (y 0).val = (y 0).val; rw [e0]; omega
  | ⟨1, _⟩ => show win3_4.index t (1 : Fin 2) * 512 + 1 * (y 1).val = (y 1).val; rw [e1]; omega

/-- What the region leaves in its output array: the layer of the arrays it is entered with. -/
def out (c : Dev nD) : S100000x512.Idx → EReal := fun i =>
  lin 100000 false (V c main_v49) (V c main_v39) (V c main_arg11) (V c main_arg13) (V c main_v50) (i 0) (i 1)

/-- The output window's tile at point `t` sits at rows `row t ·`. -/
theorem embO (t : Fin cfg3.N) (p : Fin 2000) (q : Fin 512) :
    (((cfg3.win 5).blk t).view.emb (ix2 p q) : S100000x512.Idx) = ix2 (row t p) q := by
  obtain ⟨-, -, -, -, -, -, -, -, -, -, -, e1⟩ := idx_facts t
  refine funext fun a => Fin.ext ?_
  match a with
  | ⟨0, _⟩ => show win3_5.index t (0 : Fin 2) * 2000 + 1 * p.val = win3_5.index t (0 : Fin 2) * 2000 + p.val; omega
  | ⟨1, _⟩ => show win3_5.index t (1 : Fin 2) * 512 + 1 * q.val = q.val; rw [e1]; omega

/-- What point `t` writes back is its tile of `out`. -/
theorem flushed_eq (c : Dev nD) (t : Fin cfg3.N) :
    (dat3 V c).flushed 5 t = ((cfg3.win 5).blk t).view.read (Elt Ideal) (out V c) := by
  show (cfg3.win 5).cut (grid3.coords t) ((dat3 V c).after 5 t) = _
  rw [after3_5]
  unfold out3_5
  rw [View.canon_unit_zero hz]
  simp only [View.ld_unit_zero (S := S2000x512) hz, View.ld_unit_zero (S := S512x512) hz, View.ld_unit_zero (S := S1x512) hz]
  refine funext fun (j : S2000x512.Idx) => ?_
  obtain ⟨p, q, rfl⟩ : ∃ (p : Fin 2000) (q : Fin 512), j = ix2 p q := ⟨j 0, j 1, eq_ix2 j⟩
  show k3_pay1 (F := Ideal) (iblk3 V c 0 t) (iblk3 V c 1 t) (iblk3 V c 2 t) (iblk3 V c 3 t) (iblk3 V c 4 t) (iblk3 V c 1 t) (ix2 p q)
      = out V c (((cfg3.win 5).blk t).view.emb (ix2 p q))
  rw [embO t p q]
  refine (pay3_apply (iblk3 V c 0 t) (iblk3 V c 1 t) (iblk3 V c 2 t) (iblk3 V c 3 t) (iblk3 V c 4 t) p q).trans ?_
  rw [blkW1 V c t, blkW2 V c t, blkB V c t]
  exact lin_rows false _ _ _ _ _ _ _ (row t) (blkA V c t) (blkX V c t) p q

/-- An index of the output array is in point `t`'s tile iff each coordinate is in the tile's range on its axis. -/
theorem mem_blk (t : Fin cfg3.N) (i : S100000x512.Idx) :
    i ∈ ((cfg3.win 5).blk t).view.set ↔ ∀ a : Fin 2, win3_5.index t a * S2000x512.size a ≤ (i a).val ∧ (i a).val < win3_5.index t a * S2000x512.size a + S2000x512.size a := by
  show i ∈ ((View.whole main_v51).slice (win3_5.rect t)).set ↔ _
  rw [View.set_slice_whole, Rect.mem_set_unit]
  exact Iff.rfl

/-- Every index of the output array is in the tile of the point whose row block is `row / 2000`. -/
theorem cover (i : S100000x512.Idx) : ∃ t : Fin cfg3.N, (cfg3.win 5).flush t = true ∧ i ∈ ((cfg3.win 5).blk t).view.set := by
  have hi0 : (i 0).val < 100000 := (i 0).isLt
  have hi1 : (i 1).val < 512 := (i 1).isLt
  obtain ⟨t, ht⟩ := idx_onto ⟨(i 0).val / 2000, by omega⟩
  have q0 : win3_5.index t (0 : Fin 2) = (i 0).val / 2000 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 512 ≤ (i 1).val ∧ (i 1).val < win3_5.index t (1 : Fin 2) * 512 + 512; omega

/-- The output array when the region ends. -/
theorem final (c : Dev nD) : (dat3 V c).arrAt 5 cfg3.N = out V c :=
  (dat3 V c).arrAt_eq_of_cover 5 (out V c) (fun t _ => flushed_eq V c t) cover

end Cert.KernelIdeal.Region3

end
-- ==== Proof.Through.lean ====
/-
  What the later segments leave alone.

  The buffer contents at the segment boundaries are a fold through @main (`W1` after the first host stretch, `W2` after
  the first region, … `W8` after the last region). A host stretch changes only the buffers its operations write, and a
  region only its own six arrays. So a buffer that the first stretch fills, or an argument, still holds at the second,
  third and fourth regions' entries what it held after the first stretch — provided it is none of the references the
  stretches and regions in between write, which for a given reference is decided by inspection.
-/
import proofs.«124885_j39599598469120_1_alg».proof.Proof.KernelIdealFrameP

noncomputable section

namespace Cert.KernelIdeal.Through

open Cert.KernelIdeal Cert.KernelIdeal.Gen Cert.KernelIdeal.GenP
open Idealize.ShloMosaic Idealize.ShloMosaic.TcCoe Idealize.SL.Sem

variable {F : FTy → Type} [FloatOps F]
variable (m : (ℓ : Loc nD τ sig) → Buf (Elt F) ℓ) (ρ : Dev nD → PrngReg)

/-- The references the first host stretch writes. -/
abbrev writes0 : List (Ref sig .tc) :=
  [main_v0, main_v1, main_v2, main_v3, main_c, main_v4, main_v5, main_c_0, main_v6, main_v7, main_v8, main_v9, main_v10, main_cst,
    main_v11, main_v12, main_v13, main_v14]
/-- The references the second host stretch writes. -/
abbrev writes1 : List (Ref sig .tc) :=
  [main_c_1, main_v16, main_v17, main_c_2, main_v18, main_v19, main_v20, main_v21, main_v22, main_cst_3, main_v23, main_v24,
    main_v25, main_v26]
/-- The references the third host stretch writes. -/
abbrev writes2 : List (Ref sig .tc) :=
  [main_c_4, main_v28, main_v29, main_c_5, main_v30, main_v31, main_v32, main_v33, main_v34, main_cst_6, main_v35, main_v36,
    main_v37, main_v38]

theorem hostOps0_writes : (hostOps0 : List (HloOp τ sig (Elt F))).Forall fun op =>
    op.writes ⊆ (writes0.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem hostOps1_writes : (hostOps1 : List (HloOp τ sig (Elt F))).Forall fun op =>
    op.writes ⊆ (writes1.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem hostOps2_writes : (hostOps2 : List (HloOp τ sig (Elt F))).Forall fun op =>
    op.writes ⊆ (writes2.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- After the first stretch a reference it does not write holds the launch memory's contents. -/
theorem W1_keep (c : Dev nD) (r : Ref sig .tc) (h : r ∉ writes0) :
    W1 m ρ c (Proc.devRef .tc r) = m ((c : Thread nD τ).loc r) :=
  StableHlo.after_of_writes_sub hostOps0 _ hostOps0_writes h

/-- At the second region's entry side (after the first region) a reference that is none of the first region's arrays holds
    what it held after the first stretch. -/
theorem W2_keep (c : Dev nD) (r : Ref sig .tc) (h0 : ∀ w, Pipeline.arrRef spec0 w ≠ r) :
    W2 m ρ c (Proc.devRef .tc r) = W1 m ρ c (Proc.devRef .tc r) :=
  W2_of_ne m ρ c r h0

/-- The same after the second region. -/
theorem W4_keep (c : Dev nD) (r : Ref sig .tc) (h0 : ∀ w, Pipeline.arrRef spec0 w ≠ r) (h1 : r ∉ writes1)
    (h1' : ∀ w, Pipeline.arrRef spec1 w ≠ r) :
    W4 m ρ c (Proc.devRef .tc r) = W1 m ρ c (Proc.devRef .tc r) :=
  (W4_of_ne m ρ c r h1').trans
    ((StableHlo.after_of_writes_sub hostOps1 _ hostOps1_writes h1).trans (W2_keep m ρ c r h0))

/-- The same after the third region. -/
theorem W6_keep (c : Dev nD) (r : Ref sig .tc) (h0 : ∀ w, Pipeline.arrRef spec0 w ≠ r) (h1 : r ∉ writes1)
    (h1' : ∀ w, Pipeline.arrRef spec1 w ≠ r) (h2 : r ∉ writes2) (h2' : ∀ w, Pipeline.arrRef spec2 w ≠ r) :
    W6 m ρ c (Proc.devRef .tc r) = W1 m ρ c (Proc.devRef .tc r) :=
  (W6_of_ne m ρ c r h2').trans
    ((StableHlo.after_of_writes_sub hostOps2 _ hostOps2_writes h2).trans (W4_keep m ρ c r h0 h1 h1'))

end Cert.KernelIdeal.Through

end
-- ==== Proof.Net.lean ====
/-
  The whole network as one function of the fourteen arguments, on the extended reals.

  Both programs aggregate neighbour features the same way, with the same host operations: row 0 of the edge array (negative
  entries wrapped by the node count) says where to gather from, row 1 where to add to, and the gathered rows are summed
  into a zero array. That aggregation is carried here as one function `agg` (`agg1` for the one-column input) of the
  features and the two index vectors, and is never opened. The network is the first layer of the aggregated input and
  the input, then three 512-feature layers, each of the aggregated previous layer and the previous layer (Layer.lean),
  every bias a 512-vector recast as a one-row matrix.
-/
import proofs.«124885_j39599598469120_1_alg».proof.Proof.Gen.KernelIdeal
import proofs.«124885_j39599598469120_1_alg».proof.Proof.Layer

noncomputable section

namespace Cert.KernelIdeal.Net

open Cert.KernelIdeal Cert.KernelIdeal.Gen Idealize.ShloMosaic Cert.GraphConv

/-- Row `r` of the edge array as a vector: where edges start (`r = 0`) and where they end (`r = 1`). -/
def srcRow (e : (⟨S2x400000, .i32⟩ : BufTy).Contents (Elt Ideal)) : (⟨S400000, .i32⟩ : BufTy).Contents (Elt Ideal) :=
  shapeCast _ (extractStridedSlice S1x400000 ![0, 0] e slices_S2x400000_S1x400000_0_0) shapeCasts_S1x400000_S400000

def dstRow (e : (⟨S2x400000, .i32⟩ : BufTy).Contents (Elt Ideal)) : (⟨S400000, .i32⟩ : BufTy).Contents (Elt Ideal) :=
  shapeCast _ (extractStridedSlice S1x400000 ![1, 0] e slices_S2x400000_S1x400000_1_0) shapeCasts_S1x400000_S400000

/-- The gather's index column: a negative start wrapped by the node count, one index per edge. -/
def src (s : (⟨S400000, .i32⟩ : BufTy).Contents (Elt Ideal)) : (⟨S400000x1, .i32⟩ : BufTy).Contents (Elt Ideal) :=
  broadcastInDim S400000x1 ![0] bcast_S400000_S400000x1_0
    (select (cmpi .slt s (broadcastInDim S400000 ![] bcast_S_S400000 (constantI S_ 32 0#32)))
      (addi s (broadcastInDim S400000 ![] bcast_S_S400000 (constantI S_ 32 100000#32))) s)

/-- The scatter's index column. -/
def dst (d : (⟨S400000, .i32⟩ : BufTy).Contents (Elt Ideal)) : (⟨S400000x1, .i32⟩ : BufTy).Contents (Elt Ideal) :=
  broadcastInDim S400000x1 ![0] bcast_S400000_S400000x1_0 d

/-- The one-column input aggregated over the edges. -/
def agg1 (x : (⟨S100000x1, .f32⟩ : BufTy).Contents (Elt Ideal)) (s d : (⟨S400000, .i32⟩ : BufTy).Contents (Elt Ideal)) :
    (⟨S100000x1, .f32⟩ : BufTy).Contents (Elt Ideal) :=
  Host.scatterAdd scatter_S100000x1_S400000x1_S400000x1_1_0_0_1
    (broadcastInDim S100000x1 ![] bcast_S_S100000x1 (constant (F := Ideal) S_ .f32 0x00000000#32)) (dst d)
    (Host.gather gather_S100000x1_S400000x1_S400000x1_1_0_n_n_0_1_11 x (src s))

/-- A 512-feature layer's output aggregated over the edges. -/
def agg (x : (⟨S100000x512, .f32⟩ : BufTy).Contents (Elt Ideal)) (s d : (⟨S400000, .i32⟩ : BufTy).Contents (Elt Ideal)) :
    (⟨S100000x512, .f32⟩ : BufTy).Contents (Elt Ideal) :=
  Host.scatterAdd scatter_S100000x512_S400000x1_S400000x512_1_0_0_1
    (broadcastInDim S100000x512 ![] bcast_S_S100000x512 (constant (F := Ideal) S_ .f32 0x00000000#32)) (dst d)
    (Host.gather gather_S100000x512_S400000x1_S400000x512_1_0_n_n_0_1_1512 x (src s))

/-- A bias vector as the one-row matrix the layers take. -/
def biasRow (b : (⟨S512, .f32⟩ : BufTy).Contents (Elt Ideal)) : (⟨S1x512, .f32⟩ : BufTy).Contents (Elt Ideal) :=
  shapeCast _ b shapeCasts_S512_S1x512

/-- The first layer. -/
def first (x : (⟨S100000x1, .f32⟩ : BufTy).Contents (Elt Ideal)) (s d : (⟨S400000, .i32⟩ : BufTy).Contents (Elt Ideal))
    (w1 w2 : (⟨S1x512, .f32⟩ : BufTy).Contents (Elt Ideal)) (b : (⟨S512, .f32⟩ : BufTy).Contents (Elt Ideal)) :
    (⟨S100000x512, .f32⟩ : BufTy).Contents (Elt Ideal) :=
  fun i => lin1 100000 (agg1 x s d) x w1 w2 (biasRow b) (i 0) (i 1)

/-- A 512-feature layer of the previous layer's output `x`. -/
def layer (relu : Bool) (x : (⟨S100000x512, .f32⟩ : BufTy).Contents (Elt Ideal))
    (s d : (⟨S400000, .i32⟩ : BufTy).Contents (Elt Ideal))
    (w1 w2 : (⟨S512x512, .f32⟩ : BufTy).Contents (Elt Ideal)) (b : (⟨S512, .f32⟩ : BufTy).Contents (Elt Ideal)) :
    (⟨S100000x512, .f32⟩ : BufTy).Contents (Elt Ideal) :=
  fun i => lin 100000 relu (agg x s d) x w1 w2 (biasRow b) (i 0) (i 1)

/-- The four layers, in the order of the programs' arguments: x, edges, then per layer (rel weights, bias, root weights). -/
def net (x : (⟨S100000x1, .f32⟩ : BufTy).Contents (Elt Ideal)) (e : (⟨S2x400000, .i32⟩ : BufTy).Contents (Elt Ideal))
    (w2 : (⟨S1x512, .f32⟩ : BufTy).Contents (Elt Ideal)) (b3 : (⟨S512, .f32⟩ : BufTy).Contents (Elt Ideal))
    (w4 : (⟨S1x512, .f32⟩ : BufTy).Contents (Elt Ideal))
    (w5 : (⟨S512x512, .f32⟩ : BufTy).Contents (Elt Ideal)) (b6 : (⟨S512, .f32⟩ : BufTy).Contents (Elt Ideal))
    (w7 : (⟨S512x512, .f32⟩ : BufTy).Contents (Elt Ideal))
    (w8 : (⟨S512x512, .f32⟩ : BufTy).Contents (Elt Ideal)) (b9 : (⟨S512, .f32⟩ : BufTy).Contents (Elt Ideal))
    (w10 : (⟨S512x512, .f32⟩ : BufTy).Contents (Elt Ideal))
    (w11 : (⟨S512x512, .f32⟩ : BufTy).Contents (Elt Ideal)) (b12 : (⟨S512, .f32⟩ : BufTy).Contents (Elt Ideal))
    (w13 : (⟨S512x512, .f32⟩ : BufTy).Contents (Elt Ideal)) :
    (⟨S100000x512, .f32⟩ : BufTy).Contents (Elt Ideal) :=
  layer false (layer false (layer true (first x (srcRow e) (dstRow e) w2 w4 b3) (srcRow e) (dstRow e) w5 w7 b6)
    (srcRow e) (dstRow e) w8 w10 b9) (srcRow e) (dstRow e) w11 w13 b12

end Cert.KernelIdeal.Net

end
-- ==== Proof.KernelValue.lean ====
/-
  What the idealized kernel program's result buffer holds at the last boundary: the network of Net.lean of the arguments.

  Walked region by region. The first host stretch computes the two index vectors, the aggregated input and the first bias row
  from the launch memory; the first region leaves the first layer of them in its output array (Region0.lean). Each later
  stretch aggregates the previous region's output with the SAME index vectors (nothing in between writes them:
  Through.lean) and recasts its layer's bias; each later region leaves its layer of the aggregate, the previous output, its
  two weight arguments and that bias row (Region1–3.lean). The result buffer is the last region's output array.
-/
import proofs.«124885_j39599598469120_1_alg».proof.Proof.Region0
import proofs.«124885_j39599598469120_1_alg».proof.Proof.Region1
import proofs.«124885_j39599598469120_1_alg».proof.Proof.Region2
import proofs.«124885_j39599598469120_1_alg».proof.Proof.Region3
import proofs.«124885_j39599598469120_1_alg».proof.Proof.Through
import proofs.«124885_j39599598469120_1_alg».proof.Proof.Net
import Idealize.ShloMosaic.Lib.StableHlo.Run

noncomputable section

namespace Cert.KernelIdeal.Whole

open Cert.KernelIdeal Cert.KernelIdeal.Gen Cert.KernelIdeal.GenP Cert.KernelIdeal.Through
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The first stretch, from the launch memory -/

theorem W1_src : W1 m ρ c (Proc.devRef .tc main_v1) = Net.srcRow (m ((c : Thread nD τ).loc main_arg1)) := by
  show StableHlo.after hostOps0 (W0 m ρ c) (Proc.devRef .tc main_v1) = _
  after_results_simp
  rfl

theorem W1_dst : W1 m ρ c (Proc.devRef .tc main_v3) = Net.dstRow (m ((c : Thread nD τ).loc main_arg1)) := by
  show StableHlo.after hostOps0 (W0 m ρ c) (Proc.devRef .tc main_v3) = _
  after_results_simp
  rfl

theorem V1_agg : V1 m ρ c main_v13 = Net.agg1 (m ((c : Thread nD τ).loc main_arg0))
    (Net.srcRow (m ((c : Thread nD τ).loc main_arg1))) (Net.dstRow (m ((c : Thread nD τ).loc main_arg1))) := by
  show StableHlo.after hostOps0 (W0 m ρ c) (Proc.devRef .tc main_v13) = _
  after_results_simp
  rfl

theorem V1_bias : V1 m ρ c main_v14 = Net.biasRow (m ((c : Thread nD τ).loc main_arg3)) := by
  show StableHlo.after hostOps0 (W0 m ρ c) (Proc.devRef .tc main_v14) = _
  after_results_simp
  rfl

/-! ## The first region -/

/-- The first region's output array: the first layer. -/
theorem X1 : W2 m ρ c (Proc.devRef .tc main_v15) = Net.first (m ((c : Thread nD τ).loc main_arg0))
    (Net.srcRow (m ((c : Thread nD τ).loc main_arg1))) (Net.dstRow (m ((c : Thread nD τ).loc main_arg1)))
    (m ((c : Thread nD τ).loc main_arg2)) (m ((c : Thread nD τ).loc main_arg4)) (m ((c : Thread nD τ).loc main_arg3)) := by
  refine (W2_arr m ρ c 5).trans ?_
  rw [Region0.final (V1 m ρ) c]
  unfold Region0.out Net.first
  have e0 : V1 m ρ c main_arg0 = m ((c : Thread nD τ).loc main_arg0) := W1_keep m ρ c main_arg0 (by decide)
  have e2 : V1 m ρ c main_arg2 = m ((c : Thread nD τ).loc main_arg2) := W1_keep m ρ c main_arg2 (by decide)
  have e4 : V1 m ρ c main_arg4 = m ((c : Thread nD τ).loc main_arg4) := W1_keep m ρ c main_arg4 (by decide)
  rw [V1_agg m ρ c, V1_bias m ρ c, e0, e2, e4]

/-! ## The second stretch and region -/

theorem V3_agg : V3 m ρ c main_v25 = Net.agg (W2 m ρ c (Proc.devRef .tc main_v15))
    (W2 m ρ c (Proc.devRef .tc main_v1)) (W2 m ρ c (Proc.devRef .tc main_v3)) := by
  show StableHlo.after hostOps1 (W2 m ρ c) (Proc.devRef .tc main_v25) = _
  after_results_simp
  rfl

theorem V3_bias : V3 m ρ c main_v26 = Net.biasRow (W2 m ρ c (Proc.devRef .tc main_arg6)) := by
  show StableHlo.after hostOps1 (W2 m ρ c) (Proc.devRef .tc main_v26) = _
  after_results_simp
  rfl

/-- The second region's output array: the second layer of the first. -/
theorem X2 : W4 m ρ c (Proc.devRef .tc main_v27) = Net.layer true (W2 m ρ c (Proc.devRef .tc main_v15))
    (Net.srcRow (m ((c : Thread nD τ).loc main_arg1))) (Net.dstRow (m ((c : Thread nD τ).loc main_arg1)))
    (m ((c : Thread nD τ).loc main_arg5)) (m ((c : Thread nD τ).loc main_arg7)) (m ((c : Thread nD τ).loc main_arg6)) := by
  refine (W4_arr m ρ c 5).trans ?_
  rw [Region1.final (V3 m ρ) c]
  unfold Region1.out Net.layer
  have ex : V3 m ρ c main_v15 = W2 m ρ c (Proc.devRef .tc main_v15) :=
    StableHlo.after_of_writes_sub hostOps1 _ hostOps1_writes (by decide)
  have e5 : V3 m ρ c main_arg5 = m ((c : Thread nD τ).loc main_arg5) :=
    (StableHlo.after_of_writes_sub hostOps1 _ hostOps1_writes (by decide)).trans
      ((W2_keep m ρ c main_arg5 (by decide)).trans (W1_keep m ρ c main_arg5 (by decide)))
  have e7 : V3 m ρ c main_arg7 = m ((c : Thread nD τ).loc main_arg7) :=
    (StableHlo.after_of_writes_sub hostOps1 _ hostOps1_writes (by decide)).trans
      ((W2_keep m ρ c main_arg7 (by decide)).trans (W1_keep m ρ c main_arg7 (by decide)))
  have e6 : W2 m ρ c (Proc.devRef .tc main_arg6) = m ((c : Thread nD τ).loc main_arg6) :=
    (W2_keep m ρ c main_arg6 (by decide)).trans (W1_keep m ρ c main_arg6 (by decide))
  have es : W2 m ρ c (Proc.devRef .tc main_v1) = Net.srcRow (m ((c : Thread nD τ).loc main_arg1)) :=
    (W2_keep m ρ c main_v1 (by decide)).trans (W1_src m ρ c)
  have ed : W2 m ρ c (Proc.devRef .tc main_v3) = Net.dstRow (m ((c : Thread nD τ).loc main_arg1)) :=
    (W2_keep m ρ c main_v3 (by decide)).trans (W1_dst m ρ c)
  rw [V3_agg m ρ c, V3_bias m ρ c, ex, e5, e7, e6, es, ed]

/-! ## The third stretch and region -/

theorem V5_agg : V5 m ρ c main_v37 = Net.agg (W4 m ρ c (Proc.devRef .tc main_v27))
    (W4 m ρ c (Proc.devRef .tc main_v1)) (W4 m ρ c (Proc.devRef .tc main_v3)) := by
  show StableHlo.after hostOps2 (W4 m ρ c) (Proc.devRef .tc main_v37) = _
  after_results_simp
  rfl

theorem V5_bias : V5 m ρ c main_v38 = Net.biasRow (W4 m ρ c (Proc.devRef .tc main_arg9)) := by
  show StableHlo.after hostOps2 (W4 m ρ c) (Proc.devRef .tc main_v38) = _
  after_results_simp
  rfl

/-- The third region's output array: the third layer of the second. -/
theorem X3 : W6 m ρ c (Proc.devRef .tc main_v39) = Net.layer false (W4 m ρ c (Proc.devRef .tc main_v27))
    (Net.srcRow (m ((c : Thread nD τ).loc main_arg1))) (Net.dstRow (m ((c : Thread nD τ).loc main_arg1)))
    (m ((c : Thread nD τ).loc main_arg8)) (m ((c : Thread nD τ).loc main_arg10)) (m ((c : Thread nD τ).loc main_arg9)) := by
  refine (W6_arr m ρ c 5).trans ?_
  rw [Region2.final (V5 m ρ) c]
  unfold Region2.out Net.layer
  have ex : V5 m ρ c main_v27 = W4 m ρ c (Proc.devRef .tc main_v27) :=
    StableHlo.after_of_writes_sub hostOps2 _ hostOps2_writes (by decide)
  have e8 : V5 m ρ c main_arg8 = m ((c : Thread nD τ).loc main_arg8) :=
    (StableHlo.after_of_writes_sub hostOps2 _ hostOps2_writes (by decide)).trans
      ((W4_keep m ρ c main_arg8 (by decide) (by decide) (by decide)).trans (W1_keep m ρ c main_arg8 (by decide)))
  have e10 : V5 m ρ c main_arg10 = m ((c : Thread nD τ).loc main_arg10) :=
    (StableHlo.after_of_writes_sub hostOps2 _ hostOps2_writes (by decide)).trans
      ((W4_keep m ρ c main_arg10 (by decide) (by decide) (by decide)).trans (W1_keep m ρ c main_arg10 (by decide)))
  have e9 : W4 m ρ c (Proc.devRef .tc main_arg9) = m ((c : Thread nD τ).loc main_arg9) :=
    (W4_keep m ρ c main_arg9 (by decide) (by decide) (by decide)).trans (W1_keep m ρ c main_arg9 (by decide))
  have es : W4 m ρ c (Proc.devRef .tc main_v1) = Net.srcRow (m ((c : Thread nD τ).loc main_arg1)) :=
    (W4_keep m ρ c main_v1 (by decide) (by decide) (by decide)).trans (W1_src m ρ c)
  have ed : W4 m ρ c (Proc.devRef .tc main_v3) = Net.dstRow (m ((c : Thread nD τ).loc main_arg1)) :=
    (W4_keep m ρ c main_v3 (by decide) (by decide) (by decide)).trans (W1_dst m ρ c)
  rw [V5_agg m ρ c, V5_bias m ρ c, ex, e8, e10, e9, es, ed]

/-! ## The fourth stretch and region -/

theorem V7_agg : V7 m ρ c main_v49 = Net.agg (W6 m ρ c (Proc.devRef .tc main_v39))
    (W6 m ρ c (Proc.devRef .tc main_v1)) (W6 m ρ c (Proc.devRef .tc main_v3)) := by
  show StableHlo.after hostOps3 (W6 m ρ c) (Proc.devRef .tc main_v49) = _
  after_results_simp
  rfl

theorem V7_bias : V7 m ρ c main_v50 = Net.biasRow (W6 m ρ c (Proc.devRef .tc main_arg12)) := by
  show StableHlo.after hostOps3 (W6 m ρ c) (Proc.devRef .tc main_v50) = _
  after_results_simp
  rfl

theorem V7_x : V7 m ρ c main_v39 = W6 m ρ c (Proc.devRef .tc main_v39) := by
  show StableHlo.after hostOps3 (W6 m ρ c) (Proc.devRef .tc main_v39) = _
  after_results_simp

theorem V7_w1 : V7 m ρ c main_arg11 = W6 m ρ c (Proc.devRef .tc main_arg11) := by
  show StableHlo.after hostOps3 (W6 m ρ c) (Proc.devRef .tc main_arg11) = _
  after_results_simp

theorem V7_w2 : V7 m ρ c main_arg13 = W6 m ρ c (Proc.devRef .tc main_arg13) := by
  show StableHlo.after hostOps3 (W6 m ρ c) (Proc.devRef .tc main_arg13) = _
  after_results_simp

/-- The fourth region's output array: the fourth layer of the third. -/
theorem X4 : W8 m ρ c (Proc.devRef .tc main_v51) = Net.layer false (W6 m ρ c (Proc.devRef .tc main_v39))
    (Net.srcRow (m ((c : Thread nD τ).loc main_arg1))) (Net.dstRow (m ((c : Thread nD τ).loc main_arg1)))
    (m ((c : Thread nD τ).loc main_arg11)) (m ((c : Thread nD τ).loc main_arg13)) (m ((c : Thread nD τ).loc main_arg12)) := by
  refine (W8_arr m ρ c 5).trans ?_
  rw [Region3.final (V7 m ρ) c]
  unfold Region3.out Net.layer
  have e11 : W6 m ρ c (Proc.devRef .tc main_arg11) = m ((c : Thread nD τ).loc main_arg11) :=
    (W6_keep m ρ c main_arg11 (by decide) (by decide) (by decide) (by decide) (by decide)).trans (W1_keep m ρ c main_arg11 (by decide))
  have e13 : W6 m ρ c (Proc.devRef .tc main_arg13) = m ((c : Thread nD τ).loc main_arg13) :=
    (W6_keep m ρ c main_arg13 (by decide) (by decide) (by decide) (by decide) (by decide)).trans (W1_keep m ρ c main_arg13 (by decide))
  have e12 : W6 m ρ c (Proc.devRef .tc main_arg12) = m ((c : Thread nD τ).loc main_arg12) :=
    (W6_keep m ρ c main_arg12 (by decide) (by decide) (by decide) (by decide) (by decide)).trans (W1_keep m ρ c main_arg12 (by decide))
  have es : W6 m ρ c (Proc.devRef .tc main_v1) = Net.srcRow (m ((c : Thread nD τ).loc main_arg1)) :=
    (W6_keep m ρ c main_v1 (by decide) (by decide) (by decide) (by decide) (by decide)).trans (W1_src m ρ c)
  have ed : W6 m ρ c (Proc.devRef .tc main_v3) = Net.dstRow (m ((c : Thread nD τ).loc main_arg1)) :=
    (W6_keep m ρ c main_v3 (by decide) (by decide) (by decide) (by decide) (by decide)).trans (W1_dst m ρ c)
  rw [V7_agg m ρ c, V7_bias m ρ c, V7_x m ρ c, V7_w1 m ρ c, V7_w2 m ρ c, e11, e13, e12, es, ed]

/-! ## The result -/

/-- The result buffer at the last boundary is the network of the launch memory's arguments. -/
theorem result : W8 m ρ c (Proc.devRef .tc main_v51) = Net.net
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) := by
  rw [X4 m ρ c, X3 m ρ c, X2 m ρ c, X1 m ρ c]
  rfl

end Cert.KernelIdeal.Whole

end
-- ==== Proof.RefValue.lean ====
/-
  The idealized reference is the same network.

  The reference computes, four times over, the aggregation of the previous layer's output (the same host operations as the
  kernel program's, so the same function `Net.agg` of the same index vectors), two host matrix products, the bias vector
  broadcast over the rows, and adds them as (rel + bias) + root, then rectifies (layers 1 and 2) and adds the residual
  (layers 2 to 4). Read at row `p`, column `q` each host matrix product is the sum over the contracted feature and the
  broadcast bias is the bias entry of column `q`, so each layer's stage is the layer of Layer.lean with its three summands in
  the other grouping; addition on the extended reals is commutative and associative everywhere (`lin_regroup`).
-/
import proofs.«124885_j39599598469120_1_alg».proof.Proof.Gen.ReferenceIdeal.Read
import proofs.«124885_j39599598469120_1_alg».proof.Proof.Net
import proofs.«124885_j39599598469120_1_alg».proof.Proof.Layer
import Idealize.ShloMosaic.Lib.ValueLayout

noncomputable section

namespace Cert.ReferenceIdeal.RefValue

open Cert.ReferenceIdeal Cert.ReferenceIdeal.Gen Cert.ReferenceIdeal.Read
open Idealize.ShloMosaic Idealize.ShloMosaic.ValueIdx Cert.GraphConv

variable (x0 : (⟨S100000x1, .f32⟩ : BufTy).Contents (Elt Ideal)) (x1 : (⟨S2x400000, .i32⟩ : BufTy).Contents (Elt Ideal))
  (x2 : (⟨S1x512, .f32⟩ : BufTy).Contents (Elt Ideal)) (x3 : (⟨S512, .f32⟩ : BufTy).Contents (Elt Ideal))
  (x4 : (⟨S1x512, .f32⟩ : BufTy).Contents (Elt Ideal))
  (x5 : (⟨S512x512, .f32⟩ : BufTy).Contents (Elt Ideal)) (x6 : (⟨S512, .f32⟩ : BufTy).Contents (Elt Ideal))
  (x7 : (⟨S512x512, .f32⟩ : BufTy).Contents (Elt Ideal))
  (x8 : (⟨S512x512, .f32⟩ : BufTy).Contents (Elt Ideal)) (x9 : (⟨S512, .f32⟩ : BufTy).Contents (Elt Ideal))
  (x10 : (⟨S512x512, .f32⟩ : BufTy).Contents (Elt Ideal))
  (x11 : (⟨S512x512, .f32⟩ : BufTy).Contents (Elt Ideal)) (x12 : (⟨S512, .f32⟩ : BufTy).Contents (Elt Ideal))
  (x13 : (⟨S512x512, .f32⟩ : BufTy).Contents (Elt Ideal))

/-! ## The four aggregations are `Net.agg1` / `Net.agg` of the previous stage: the same operations, read off -/

theorem agg_1 : val_main_v13 (F := Ideal) x0 x1
    = Cert.KernelIdeal.Net.agg1 x0 (Cert.KernelIdeal.Net.srcRow x1) (Cert.KernelIdeal.Net.dstRow x1) := rfl

theorem agg_2 : val_main_v30 (F := Ideal) x0 x1 x2 x3 x4
    = Cert.KernelIdeal.Net.agg (val_main_v20 (F := Ideal) x0 x1 x2 x3 x4) (Cert.KernelIdeal.Net.srcRow x1) (Cert.KernelIdeal.Net.dstRow x1) := rfl

theorem agg_3 : val_main_v48 (F := Ideal) x0 x1 x2 x3 x4 x5 x6 x7
    = Cert.KernelIdeal.Net.agg (val_main_v38 (F := Ideal) x0 x1 x2 x3 x4 x5 x6 x7) (Cert.KernelIdeal.Net.srcRow x1) (Cert.KernelIdeal.Net.dstRow x1) := rfl

theorem agg_4 : val_main_v65 (F := Ideal) x0 x1 x2 x3 x4 x5 x6 x7 x8 x9 x10
    = Cert.KernelIdeal.Net.agg (val_main_v55 (F := Ideal) x0 x1 x2 x3 x4 x5 x6 x7 x8 x9 x10) (Cert.KernelIdeal.Net.srcRow x1) (Cert.KernelIdeal.Net.dstRow x1) := rfl

/-! ## The four layer stages -/

/-- The first layer: one contracted feature, so each product's sum is its single term. -/
theorem stage1 : val_main_v20 (F := Ideal) x0 x1 x2 x3 x4
    = Cert.KernelIdeal.Net.first x0 (Cert.KernelIdeal.Net.srcRow x1) (Cert.KernelIdeal.Net.dstRow x1) x2 x4 x3 := by
  funext i
  obtain ⟨p, q, rfl⟩ : ∃ (p : Fin 100000) (q : Fin 512), i = ix2 p q := ⟨i 0, i 1, eq_ix2 i⟩
  rw [val_main_v20_apply, val_main_v19_apply, val_main_v17_apply, val_main_v14_apply, val_main_v16_apply, val_main_v15_apply,
    val_main_v18_apply, val_main_call0_v0_apply, val_main_call0_cst_apply, agg_1]
  have l1 : lidx_main_v14 (ix2 p q) (0 : Fin 1) = ix2 p (0 : Fin 1) := funext fun a => by
    match a with | ⟨0, _⟩ => rfl | ⟨1, _⟩ => rfl
  have r1 : ridx_main_v14 (ix2 p q) (0 : Fin 1) = ix2 (0 : Fin 1) q := funext fun a => by
    match a with | ⟨0, _⟩ => rfl | ⟨1, _⟩ => rfl
  have l2 : lidx_main_v18 (ix2 p q) (0 : Fin 1) = ix2 p (0 : Fin 1) := funext fun a => by
    match a with | ⟨0, _⟩ => rfl | ⟨1, _⟩ => rfl
  have r2 : ridx_main_v18 (ix2 p q) (0 : Fin 1) = ix2 (0 : Fin 1) q := funext fun a => by
    match a with | ⟨0, _⟩ => rfl | ⟨1, _⟩ => rfl
  have hb : x3 (idx_main_v15 (idx_main_v16 (ix2 p q))) = Cert.KernelIdeal.Net.biasRow x3 (ix2 0 q) := by
    have hi : idx_main_v15 (idx_main_v16 (ix2 p q)) = ix1 q := funext fun a => by match a with | ⟨0, _⟩ => rfl
    rw [hi]
    exact (shapeCast_a_1a_apply x3 _ 0 q).symm
  simp only [Fin.sum_univ_one, l1, r1, l2, r2, hb]
  exact lin1_regroup 100000 (Cert.KernelIdeal.Net.agg1 x0 _ _) x0 x2 x4 (Cert.KernelIdeal.Net.biasRow x3) p q

/-- The second layer: rectified, the first layer's output added back. -/
theorem stage2 : val_main_v38 (F := Ideal) x0 x1 x2 x3 x4 x5 x6 x7
    = Cert.KernelIdeal.Net.layer true (val_main_v20 (F := Ideal) x0 x1 x2 x3 x4)
        (Cert.KernelIdeal.Net.srcRow x1) (Cert.KernelIdeal.Net.dstRow x1) x5 x7 x6 := by
  funext i
  obtain ⟨p, q, rfl⟩ : ∃ (p : Fin 100000) (q : Fin 512), i = ix2 p q := ⟨i 0, i 1, eq_ix2 i⟩
  rw [val_main_v38_apply, val_main_v37_apply, val_main_v36_apply, val_main_v34_apply, val_main_v31_apply, val_main_v33_apply,
    val_main_v32_apply, val_main_v35_apply, val_main_call1_v0_apply, val_main_call1_cst_apply, agg_2]
  generalize val_main_v20 (F := Ideal) x0 x1 x2 x3 x4 = X
  have l1 : ∀ k : Fin 512, lidx_main_v31 (ix2 p q) k = ix2 p k := fun k => funext fun a => by
    match a with | ⟨0, _⟩ => rfl | ⟨1, _⟩ => rfl
  have r1 : ∀ k : Fin 512, ridx_main_v31 (ix2 p q) k = ix2 k q := fun k => funext fun a => by
    match a with | ⟨0, _⟩ => rfl | ⟨1, _⟩ => rfl
  have l2 : ∀ k : Fin 512, lidx_main_v35 (ix2 p q) k = ix2 p k := fun k => funext fun a => by
    match a with | ⟨0, _⟩ => rfl | ⟨1, _⟩ => rfl
  have r2 : ∀ k : Fin 512, ridx_main_v35 (ix2 p q) k = ix2 k q := fun k => funext fun a => by
    match a with | ⟨0, _⟩ => rfl | ⟨1, _⟩ => rfl
  have hb : x6 (idx_main_v32 (idx_main_v33 (ix2 p q))) = Cert.KernelIdeal.Net.biasRow x6 (ix2 0 q) := by
    have hi : idx_main_v32 (idx_main_v33 (ix2 p q)) = ix1 q := funext fun a => by match a with | ⟨0, _⟩ => rfl
    rw [hi]
    exact (shapeCast_a_1a_apply x6 _ 0 q).symm
  simp only [l1, r1, l2, r2, hb]
  exact lin_regroup 100000 true (Cert.KernelIdeal.Net.agg X _ _) X x5 x7 (Cert.KernelIdeal.Net.biasRow x6) p q

/-- The third layer: no rectifier, the second layer's output added back. -/
theorem stage3 : val_main_v55 (F := Ideal) x0 x1 x2 x3 x4 x5 x6 x7 x8 x9 x10
    = Cert.KernelIdeal.Net.layer false (val_main_v38 (F := Ideal) x0 x1 x2 x3 x4 x5 x6 x7)
        (Cert.KernelIdeal.Net.srcRow x1) (Cert.KernelIdeal.Net.dstRow x1) x8 x10 x9 := by
  funext i
  obtain ⟨p, q, rfl⟩ : ∃ (p : Fin 100000) (q : Fin 512), i = ix2 p q := ⟨i 0, i 1, eq_ix2 i⟩
  rw [val_main_v55_apply, val_main_v54_apply, val_main_v52_apply, val_main_v49_apply, val_main_v51_apply, val_main_v50_apply,
    val_main_v53_apply, agg_3]
  generalize val_main_v38 (F := Ideal) x0 x1 x2 x3 x4 x5 x6 x7 = X
  have l1 : ∀ k : Fin 512, lidx_main_v49 (ix2 p q) k = ix2 p k := fun k => funext fun a => by
    match a with | ⟨0, _⟩ => rfl | ⟨1, _⟩ => rfl
  have r1 : ∀ k : Fin 512, ridx_main_v49 (ix2 p q) k = ix2 k q := fun k => funext fun a => by
    match a with | ⟨0, _⟩ => rfl | ⟨1, _⟩ => rfl
  have l2 : ∀ k : Fin 512, lidx_main_v53 (ix2 p q) k = ix2 p k := fun k => funext fun a => by
    match a with | ⟨0, _⟩ => rfl | ⟨1, _⟩ => rfl
  have r2 : ∀ k : Fin 512, ridx_main_v53 (ix2 p q) k = ix2 k q := fun k => funext fun a => by
    match a with | ⟨0, _⟩ => rfl | ⟨1, _⟩ => rfl
  have hb : x9 (idx_main_v50 (idx_main_v51 (ix2 p q))) = Cert.KernelIdeal.Net.biasRow x9 (ix2 0 q) := by
    have hi : idx_main_v50 (idx_main_v51 (ix2 p q)) = ix1 q := funext fun a => by match a with | ⟨0, _⟩ => rfl
    rw [hi]
    exact (shapeCast_a_1a_apply x9 _ 0 q).symm
  simp only [l1, r1, l2, r2, hb]
  exact lin_regroup 100000 false (Cert.KernelIdeal.Net.agg X _ _) X x8 x10 (Cert.KernelIdeal.Net.biasRow x9) p q

/-- The fourth layer: no rectifier, the third layer's output added back. -/
theorem stage4 : val_main_v72 (F := Ideal) x0 x1 x2 x3 x4 x5 x6 x7 x8 x9 x10 x11 x12 x13
    = Cert.KernelIdeal.Net.layer false (val_main_v55 (F := Ideal) x0 x1 x2 x3 x4 x5 x6 x7 x8 x9 x10)
        (Cert.KernelIdeal.Net.srcRow x1) (Cert.KernelIdeal.Net.dstRow x1) x11 x13 x12 := by
  funext i
  obtain ⟨p, q, rfl⟩ : ∃ (p : Fin 100000) (q : Fin 512), i = ix2 p q := ⟨i 0, i 1, eq_ix2 i⟩
  rw [val_main_v72_apply, val_main_v71_apply, val_main_v69_apply, val_main_v66_apply, val_main_v68_apply, val_main_v67_apply,
    val_main_v70_apply, agg_4]
  generalize val_main_v55 (F := Ideal) x0 x1 x2 x3 x4 x5 x6 x7 x8 x9 x10 = X
  have l1 : ∀ k : Fin 512, lidx_main_v66 (ix2 p q) k = ix2 p k := fun k => funext fun a => by
    match a with | ⟨0, _⟩ => rfl | ⟨1, _⟩ => rfl
  have r1 : ∀ k : Fin 512, ridx_main_v66 (ix2 p q) k = ix2 k q := fun k => funext fun a => by
    match a with | ⟨0, _⟩ => rfl | ⟨1, _⟩ => rfl
  have l2 : ∀ k : Fin 512, lidx_main_v70 (ix2 p q) k = ix2 p k := fun k => funext fun a => by
    match a with | ⟨0, _⟩ => rfl | ⟨1, _⟩ => rfl
  have r2 : ∀ k : Fin 512, ridx_main_v70 (ix2 p q) k = ix2 k q := fun k => funext fun a => by
    match a with | ⟨0, _⟩ => rfl | ⟨1, _⟩ => rfl
  have hb : x12 (idx_main_v67 (idx_main_v68 (ix2 p q))) = Cert.KernelIdeal.Net.biasRow x12 (ix2 0 q) := by
    have hi : idx_main_v67 (idx_main_v68 (ix2 p q)) = ix1 q := funext fun a => by match a with | ⟨0, _⟩ => rfl
    rw [hi]
    exact (shapeCast_a_1a_apply x12 _ 0 q).symm
  simp only [l1, r1, l2, r2, hb]
  exact lin_regroup 100000 false (Cert.KernelIdeal.Net.agg X _ _) X x11 x13 (Cert.KernelIdeal.Net.biasRow x12) p q

/-! ## The result -/

/-- The reference's last stage is the network of its arguments. -/
theorem result : val_main_v72 (F := Ideal) x0 x1 x2 x3 x4 x5 x6 x7 x8 x9 x10 x11 x12 x13
    = Cert.KernelIdeal.Net.net x0 x1 x2 x3 x4 x5 x6 x7 x8 x9 x10 x11 x12 x13 := by
  rw [stage4, stage3, stage2, stage1]
  rfl

end Cert.ReferenceIdeal.RefValue

end
-- ==== Proof.lean ====
/-
  A four-layer graph convolution network on 100000 nodes and 400000 edges, 512 hidden features: the kernel program (an
  edge aggregation on the host before each of four tiled layer kernels) against the plain reference.

  At the ideal instance both programs compute one function of the fourteen arguments (Proof/Net.lean): each layer is

      act ((Σₖ A(p,k)·W_rel(k,q) + Σₖ X(p,k)·W_root(k,q)) + b(q))  [+ X(p,q)]

  of the previous layer's output X and its aggregate A over the edges. The kernel program's four regions each end with
  their output array at that layer of the arrays they are entered with (Proof/Payload.lean: what a tile's stored value is;
  Proof/Region0–3.lean: the tiles cover the array), and the contents are threaded through the eight segments of @main
  (Proof/KernelRun.lean, Proof/Through.lean, Proof/KernelValue.lean). The reference's stages are the same layers with the
  three summands grouped (rel + bias) + root instead of (rel + root) + bias (Proof/RefValue.lean); addition of extended
  reals is commutative and associative, infinities included, so no finiteness of the inputs is used. The aggregation is
  the same host operations in both programs and is carried as one function, never opened.

  The frames: each kernel program's from its frame run; the reference's from its run with the result dropped. The ideal
  pass rewrote nothing, so there is nothing to preserve.
-/
import proofs.«124885_j39599598469120_1_alg».proof.Defs
import proofs.«124885_j39599598469120_1_alg».proof.Proof.Gen.Kernel
import proofs.«124885_j39599598469120_1_alg».proof.Proof.KernelFrameP
import proofs.«124885_j39599598469120_1_alg».proof.Proof.Gen.KernelIdeal
import proofs.«124885_j39599598469120_1_alg».proof.Proof.KernelIdealFrameP
import proofs.«124885_j39599598469120_1_alg».proof.Proof.Gen.ReferenceIdeal
import proofs.«124885_j39599598469120_1_alg».proof.Proof.Gen.ReferenceIdeal.Run
import proofs.«124885_j39599598469120_1_alg».proof.Proof.Gen.ReferenceIdeal.Read
import proofs.«124885_j39599598469120_1_alg».proof.Proof.Gen.Pre_finite_inputs
import proofs.«124885_j39599598469120_1_alg».proof.Proof.KernelRun
import proofs.«124885_j39599598469120_1_alg».proof.Proof.KernelValue
import proofs.«124885_j39599598469120_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the network of the arguments in their result buffer. -/
theorem algebraic : Cert.algebraic_KernelIdeal_ReferenceIdeal := by
  intro m ρ m' ρ' _ hagree
  refine ⟨fun c => Cert.KernelIdeal.Net.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono
      (fun _ h c => ⟨(h c).1.trans (Cert.KernelIdeal.Whole.result m ρ c), (h c).2⟩)
      (Cert.KernelIdeal.Run.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v72_eq, Cert.ReferenceIdeal.RefValue.result]
    obtain ⟨h0, h1, h2, h3, h4, h5, h6, h7, h8, h9, h10, h11, h12, h13⟩ := hagree c
    rw [h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
